-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8192 : Shape := ⟨2, ![16, 8192]⟩
abbrev S1023x8 : Shape := ⟨2, ![1023, 8]⟩
abbrev S8 : Shape := ⟨1, ![8]⟩
abbrev S8x8 : Shape := ⟨2, ![8, 8]⟩
abbrev S8x3 : Shape := ⟨2, ![8, 3]⟩
abbrev S3 : Shape := ⟨1, ![3]⟩
abbrev S_ : Shape := ⟨0, ![]⟩

class Facts : Prop where
  bcast_S_S16x8192 : S_.BroadcastsInDim S16x8192 (![] : Fin 0 → Fin S16x8192.rank)
  reducesTo_S16x8192_S_d0_1 : S16x8192.ReducesTo [0, 1] S_
  h_S_ : 0 < S_.numel
  bcast_S_S1023x8 : S_.BroadcastsInDim S1023x8 (![] : Fin 0 → Fin S1023x8.rank)
  reducesTo_S1023x8_S_d0_1 : S1023x8.ReducesTo [0, 1] S_
  bcast_S_S8 : S_.BroadcastsInDim S8 (![] : Fin 0 → Fin S8.rank)
  reducesTo_S8_S_d0 : S8.ReducesTo [0] S_
  bcast_S_S8x8 : S_.BroadcastsInDim S8x8 (![] : Fin 0 → Fin S8x8.rank)
  reducesTo_S8x8_S_d0_1 : S8x8.ReducesTo [0, 1] S_
  bcast_S_S8x3 : S_.BroadcastsInDim S8x3 (![] : Fin 0 → Fin S8x3.rank)
  reducesTo_S8x3_S_d0_1 : S8x3.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_arg4 : FVec F S8 .f32) (main_arg5 : FVec F S8x3 .f32) (main_arg6 : FVec F S3 .f32) (main_v13 : IVec S_ 1) (main_v16 : IVec S8x8 1) : IVec S_ 1 :=
  let main_c_5 : IVec S_ 1 := constantI S_ 1 1#1
  let main_v17 : IVec S_ 1 := (fun x v => Host.reduce IntOp.andi x v reducesTo_S8x8_S_d0_1 h_S_) main_v16 main_c_5
  let main_v18 : IVec S_ 1 := andi main_v13 main_v17
  let main_v19 : FVec F S8 .f32 := Host.absf main_arg4
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  let main_v24 : FVec F S8x3 .f32 := Host.absf main_arg5
  let main_cst_8 : FVec F S_ .f32 := constant S_ .f32 0x7F800000#32
  let main_v25 : FVec F S8x3 .f32 := broadcastInDim S8x3 ![] bcast_S_S8x3 main_cst_8
  let main_v26 : IVec S8x3 1 := cmpf .olt main_v24 main_v25
  let main_c_9 : IVec S_ 1 := constantI S_ 1 1#1
  let main_v27 : IVec S_ 1 := (fun x v => Host.reduce IntOp.andi x v reducesTo_S8x3_S_d0_1 h_S_) main_v26 main_c_9
  let main_v28 : IVec S_ 1 := andi main_v23 main_v27
  let main_v29 : FVec F S3 .f32 := Host.absf main_arg6
  let main_cst_10 : FVec F S_ .f32 := constant S_ .f32 0x7F800000#32
  let main_v30 : FVec F S3 .f32 := broadcastInDim S3 ![] bcast_S_S3 main_cst_10
  let main_v31 : IVec S3 1 := cmpf .olt main_v29 main_v30
  let main_c_11 : IVec S_ 1 := constantI S_ 1 1#1
  let main_v32 : IVec S_ 1 := (fun x v => Host.reduce IntOp.andi x v reducesTo_S3_S_d0 h_S_) main_v31 main_c_11
  let main_v33 : IVec S_ 1 := andi main_v28 main_v32
  main_v33

def fn {F : FTy → Type} [FloatOps F] (main_arg0 : FVec F S16x8192 .f32) (main_arg1 : FVec F S1023x8 .f32) (main_arg2 : FVec F S8 .f32) (main_arg3 : FVec F S8x8 .f32) (main_arg4 : FVec F S8 .f32) (main_arg5 : FVec F S8x3 .f32) (main_arg6 : FVec F S3 .f32) : IVec S_ 1 :=
  let main_v0 : FVec F S16x8192 .f32 := Host.absf main_arg0
  let main_cst : FVec F S_ .f32 := constant S_ .f32 0x7F800000#32
  let main_v1 : FVec F S16x8192 .f32 := broadcastInDim S16x8192 ![] bcast_S_S16x8192 main_cst
  let main_v2 : IVec S16x8192 1 := cmpf .olt main_v0 main_v1
  let main_c : IVec S_ 1 := constantI S_ 1 1#1
  let main_v3 : IVec S_ 1 := (fun x v => Host.reduce IntOp.andi x v reducesTo_S16x8192_S_d0_1 h_S_) main_v2 main_c
  let main_v4 : FVec F S1023x8 .f32 := Host.absf main_arg1
  let main_cst_0 : FVec F S_ .f32 := constant S_ .f32 0x7F800000#32
  let main_v5 : FVec F S1023x8 .f32 := broadcastInDim S1023x8 ![] bcast_S_S1023x8 main_cst_0
  let main_v6 : IVec S1023x8 1 := cmpf .olt main_v4 main_v5
  let main_c_1 : IVec S_ 1 := constantI S_ 1 1#1
  let main_v7 : IVec S_ 1 := (fun x v => Host.reduce IntOp.andi x v reducesTo_S1023x8_S_d0_1 h_S_) main_v6 main_c_1
  let main_v8 : IVec S_ 1 := andi main_v3 main_v7
  let main_v9 : FVec F S8 .f32 := Host.absf main_arg2
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S8x8 .f32 := Host.absf main_arg3
  let main_cst_4 : FVec F S_ .f32 := constant S_ .f32 0x7F800000#32
  let main_v15 : FVec F S8x8 .f32 := broadcastInDim S8x8 ![] bcast_S_S8x8 main_cst_4
  let main_v16 : IVec S8x8 1 := cmpf .olt main_v14 main_v15
  fn_part1 (F := F) main_arg4 main_arg5 main_arg6 main_v13 main_v16
-- ==== Kernel.lean ====
abbrev S16x8192 : Shape := ⟨2, ![16, 8192]⟩
abbrev S1023x8 : Shape := ⟨2, ![1023, 8]⟩
abbrev S8 : Shape := ⟨1, ![8]⟩
abbrev S8x8 : Shape := ⟨2, ![8, 8]⟩
abbrev S8x3 : Shape := ⟨2, ![8, 3]⟩
abbrev S3 : Shape := ⟨1, ![3]⟩
abbrev S1024 : Shape := ⟨1, ![1024]⟩
abbrev S1x1024 : Shape := ⟨2, ![1, 1024]⟩
abbrev S131072x1 : Shape := ⟨2, ![131072, 1]⟩
abbrev S_ : Shape := ⟨0, ![]⟩
abbrev S1024x8 : Shape := ⟨2, ![1024, 8]⟩
abbrev S1x8 : Shape := ⟨2, ![1, 8]⟩
abbrev S1x3 : Shape := ⟨2, ![1, 3]⟩
abbrev S131072x3 : Shape := ⟨2, ![131072, 3]⟩
abbrev S2048x1 : Shape := ⟨2, ![2048, 1]⟩
abbrev S2048x3 : Shape := ⟨2, ![2048, 3]⟩
abbrev S2048x1024 : Shape := ⟨2, ![2048, 1024]⟩
abbrev S2048x8 : Shape := ⟨2, ![2048, 8]⟩
abbrev S16x8192x3 : Shape := ⟨3, ![16, 8192, 3]⟩

abbrev nBuf : Space → Nat
  | .hbm => 24
  | .vmem => 14
  | .smem => 0
  | _ => 0

abbrev bufTy : (tb : Table) → Fin (tcTables nBuf tb) → BufTy
  | .hbm, ⟨0, _⟩ => ⟨S16x8192, .f32⟩
  | .hbm, ⟨1, _⟩ => ⟨S1023x8, .f32⟩
  | .hbm, ⟨2, _⟩ => ⟨S8, .f32⟩
  | .hbm, ⟨3, _⟩ => ⟨S8x8, .f32⟩
  | .hbm, ⟨4, _⟩ => ⟨S8, .f32⟩
  | .hbm, ⟨5, _⟩ => ⟨S8x3, .f32⟩
  | .hbm, ⟨6, _⟩ => ⟨S3, .f32⟩
  | .hbm, ⟨7, _⟩ => ⟨S1024, .f32⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S131072x1, .f32⟩
  | .hbm, ⟨16, _⟩ => ⟨S_, .i32⟩
  | .hbm, ⟨17, _⟩ => ⟨S_, .f32⟩
  | .hbm, ⟨18, _⟩ => ⟨S1024x8, .f32⟩
  | .hbm, ⟨19, _⟩ => ⟨S1x8, .f32⟩
  | .hbm, ⟨20, _⟩ => ⟨S1x8, .f32⟩
  | .hbm, ⟨21, _⟩ => ⟨S1x3, .f32⟩
  | .hbm, ⟨22, _⟩ => ⟨S131072x3, .f32⟩
  | .hbm, ⟨23, _⟩ => ⟨S16x8192x3, .f32⟩
  | .local _ .vmem, ⟨0, _⟩ => ⟨S2048x1, .f32⟩
  | .local _ .vmem, ⟨1, _⟩ => ⟨S2048x1, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1024x8, .f32⟩
  | .local _ .vmem, ⟨7, _⟩ => ⟨S1x8, .f32⟩
  | .local _ .vmem, ⟨8, _⟩ => ⟨S8x8, .f32⟩
  | .local _ .vmem, ⟨9, _⟩ => ⟨S1x8, .f32⟩
  | .local _ .vmem, ⟨10, _⟩ => ⟨S8x3, .f32⟩
  | .local _ .vmem, ⟨11, _⟩ => ⟨S1x3, .f32⟩
  | .local _ .vmem, ⟨12, _⟩ => ⟨S2048x3, .f32⟩
  | .local _ .vmem, ⟨13, _⟩ => ⟨S2048x3, .f32⟩
  | _, _ => ⟨S16x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_cst_1 : Ref sig .tc := ⟨.hbm, 11, rfl⟩
abbrev main_v2 : Ref sig .tc := ⟨.hbm, 12, rfl⟩
abbrev main_cst_2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_call0_v0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x3 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x3 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2048x3 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bcast_S1024_S1x1024_1 : S1024.BroadcastsInDim S1x1024 (![1] : Fin 1 → Fin S1x1024.rank)
  shapeCasts_S16x8192_S131072x1 : S16x8192.ShapeCasts S131072x1
  pads_S1023x8_S1024x8_010_000 : S1023x8.Pads (![0, 0] : Fin 2 → Nat) ![1, 0] ![0, 0] S1024x8
  h_S_ : 0 < S_.numel
  shapeCasts_S8_S1x8 : S8.ShapeCasts S1x8
  shapeCasts_S3_S1x3 : S3.ShapeCasts S1x3
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x1024_S1x1024_0_0 : ∀ a, (![0, 0] : Fin 2 → Nat) a + S1x1024.size a ≤ S1x1024.size a
  h_S1x1024 : 0 < S1x1024.numel
  broadcasts_S2048x1_S2048x1024 : S2048x1.Broadcasts S2048x1024
  broadcasts_S1x1024_S2048x1024 : S1x1024.Broadcasts S2048x1024
  natLt_1_32 : 1 < 32
  bitsLt_bf16_f32 : FTy.bits .bf16 < FTy.bits .f32
  inb_S1024x8_S1024x8_0_0 : ∀ a, (![0, 0] : Fin 2 → Nat) a + S1024x8.size a ≤ S1024x8.size a
  h_S1024x8 : 0 < S1024x8.numel
  shapeCasts_S1024x8_S1024x8 : S1024x8.ShapeCasts S1024x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S2048x8 : S1x8.Broadcasts S2048x8
  inb_S8x8_S8x8_0_0 : ∀ a, (![0, 0] : Fin 2 → Nat) a + S8x8.size a ≤ S8x8.size a
  h_S8x8 : 0 < S8x8.numel
  inb_S8x3_S8x3_0_0 : ∀ a, (![0, 0] : Fin 2 → Nat) a + S8x3.size a ≤ S8x3.size a
  h_S8x3 : 0 < S8x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S2048x3 : S1x3.Broadcasts S2048x3
  inb_S2048x3_S2048x3_0_0 : ∀ a, (![0, 0] : Fin 2 → Nat) a + S2048x3.size a ≤ S2048x3.size a
  h_S2048x3 : 0 < S2048x3.numel
  shapeCasts_S131072x3_S16x8192x3 : S131072x3.ShapeCasts S16x8192x3
  dot_S2048x1024_S1024x8_S2048x8_1_0_0_1_n_n_wf : DotDims.WF S2048x1024 S1024x8 S2048x8 [1] [0] [0] [1] [] []
  dot_S2048x8_S8x8_S2048x8_1_0_0_1_n_n_wf : DotDims.WF S2048x8 S8x8 S2048x8 [1] [0] [0] [1] [] []
  dot_S2048x8_S8x3_S2048x3_1_0_0_1_n_n_wf : DotDims.WF S2048x8 S8x3 S2048x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1.size a ≤ S131072x1.size a
  hwx0_0 : ∀ i : grid0.Coords, EltTy.bits .f32 = 32 ∨ (Rect.block (s := S131072x1) S2048x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x8.size a ≤ S1024x8.size a
  hwx0_5 : ∀ i : grid0.Coords, EltTy.bits .f32 = 32 ∨ (Rect.block (s := S1024x8) S1024x8.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x8.size a ≤ S1x8.size a
  hwx0_6 : ∀ i : grid0.Coords, EltTy.bits .f32 = 32 ∨ (Rect.block (s := S1x8) S1x8.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8x8.size a ≤ S8x8.size a
  hwx0_7 : ∀ i : grid0.Coords, EltTy.bits .f32 = 32 ∨ (Rect.block (s := S8x8) S8x8.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x8.size a ≤ S1x8.size a
  hwx0_8 : ∀ i : grid0.Coords, EltTy.bits .f32 = 32 ∨ (Rect.block (s := S1x8) S1x8.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S8x3.size a ≤ S8x3.size a
  hwx0_9 : ∀ i : grid0.Coords, EltTy.bits .f32 = 32 ∨ (Rect.block (s := S8x3) S8x3.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x3.size a ≤ S1x3.size a
  hwx0_10 : ∀ i : grid0.Coords, EltTy.bits .f32 = 32 ∨ (Rect.block (s := S1x3) S1x3.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2048x3.size a ≤ S131072x3.size a
  hwx0_11 : ∀ i : grid0.Coords, EltTy.bits .f32 = 32 ∨ (Rect.block (s := S131072x3) S2048x3.size (cc0_transform_11 i) (hinb0_11 i)).WholeWords (EltTy.packing .f32)

variable [Facts₀]

def dot_S2048x1024_S1024x8_S2048x8_1_0_0_1_n_n : DotDims S2048x1024 S1024x8 S2048x8 where
  lhsContracting := [1]
  rhsContracting := [0]
  lhsNonContracting := [0]
  rhsNonContracting := [1]
  lhsBatch := []
  rhsBatch := []
  wf := dot_S2048x1024_S1024x8_S2048x8_1_0_0_1_n_n_wf
def dot_S2048x8_S8x8_S2048x8_1_0_0_1_n_n : DotDims S2048x8 S8x8 S2048x8 where
  lhsContracting := [1]
  rhsContracting := [0]
  lhsNonContracting := [0]
  rhsNonContracting := [1]
  lhsBatch := []
  rhsBatch := []
  wf := dot_S2048x8_S8x8_S2048x8_1_0_0_1_n_n_wf
def dot_S2048x8_S8x3_S2048x3_1_0_0_1_n_n : DotDims S2048x8 S8x3 S2048x3 where
  lhsContracting := [1]
  rhsContracting := [0]
  lhsNonContracting := [0]
  rhsNonContracting := [1]
  lhsBatch := []
  rhsBatch := []
  wf := dot_S2048x8_S8x3_S2048x3_1_0_0_1_n_n_wf

abbrev win0_0 : Pipeline.Window sig grid0 :=
  Pipeline.Window.ofSpec (Memref.whole main_v4) S2048x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1024x8.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x8.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg3) S8x8.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1x8.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg5) S8x3.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v8) S1x3.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v9) S2048x3.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S16x8192 : Shape := ⟨2, ![16, 8192]⟩
abbrev S1023x8 : Shape := ⟨2, ![1023, 8]⟩
abbrev S8 : Shape := ⟨1, ![8]⟩
abbrev S8x8 : Shape := ⟨2, ![8, 8]⟩
abbrev S8x3 : Shape := ⟨2, ![8, 3]⟩
abbrev S3 : Shape := ⟨1, ![3]⟩
abbrev S1023 : Shape := ⟨1, ![1023]⟩
abbrev S131072x1 : Shape := ⟨2, ![131072, 1]⟩
abbrev S1x1023 : Shape := ⟨2, ![1, 1023]⟩
abbrev S131072x1023 : Shape := ⟨2, ![131072, 1023]⟩
abbrev S131072x8 : Shape := ⟨2, ![131072, 8]⟩
abbrev S1x8 : Shape := ⟨2, ![1, 8]⟩
abbrev S_ : Shape := ⟨0, ![]⟩
abbrev S131072x3 : Shape := ⟨2, ![131072, 3]⟩
abbrev S1x3 : Shape := ⟨2, ![1, 3]⟩
abbrev S16x8192x3 : Shape := ⟨3, ![16, 8192, 3]⟩

abbrev nBuf : Space → Nat
  | .hbm => 52
  | .vmem => 0
  | .smem => 0
  | _ => 0

abbrev bufTy : (tb : Table) → Fin (tcTables nBuf tb) → BufTy
  | .hbm, ⟨0, _⟩ => ⟨S16x8192, .f32⟩
  | .hbm, ⟨1, _⟩ => ⟨S1023x8, .f32⟩
  | .hbm, ⟨2, _⟩ => ⟨S8, .f32⟩
  | .hbm, ⟨3, _⟩ => ⟨S8x8, .f32⟩
  | .hbm, ⟨4, _⟩ => ⟨S8, .f32⟩
  | .hbm, ⟨5, _⟩ => ⟨S8x3, .f32⟩
  | .hbm, ⟨6, _⟩ => ⟨S3, .f32⟩
  | .hbm, ⟨7, _⟩ => ⟨S1023, .f32⟩
  | .hbm, ⟨8, _⟩ => ⟨S1023, .f32⟩
  | .hbm, ⟨9, _⟩ => ⟨S1023, .f32⟩
  | .hbm, ⟨10, _⟩ => ⟨S1023, .f32⟩
  | .hbm, ⟨11, _⟩ => ⟨S131072x1, .f32⟩
  | .hbm, ⟨12, _⟩ => ⟨S1x1023, .f32⟩
  | .hbm, ⟨13, _⟩ => ⟨S131072x1023, .f32⟩
  | .hbm, ⟨14, _⟩ => ⟨S131072x1023, .f32⟩
  | .hbm, ⟨15, _⟩ => ⟨S131072x1023, .i1⟩
  | .hbm, ⟨16, _⟩ => ⟨S1x1023, .f32⟩
  | .hbm, ⟨17, _⟩ => ⟨S131072x1023, .f32⟩
  | .hbm, ⟨18, _⟩ => ⟨S131072x1023, .f32⟩
  | .hbm, ⟨19, _⟩ => ⟨S131072x1023, .i1⟩
  | .hbm, ⟨20, _⟩ => ⟨S131072x1023, .i1⟩
  | .hbm, ⟨21, _⟩ => ⟨S1x1023, .f32⟩
  | .hbm, ⟨22, _⟩ => ⟨S131072x1023, .f32⟩
  | .hbm, ⟨23, _⟩ => ⟨S131072x1023, .f32⟩
  | .hbm, ⟨24, _⟩ => ⟨S131072x1023, .i1⟩
  | .hbm, ⟨25, _⟩ => ⟨S1x1023, .f32⟩
  | .hbm, ⟨26, _⟩ => ⟨S131072x1023, .f32⟩
  | .hbm, ⟨27, _⟩ => ⟨S131072x1023, .f32⟩
  | .hbm, ⟨28, _⟩ => ⟨S131072x1023, .i1⟩
  | .hbm, ⟨29, _⟩ => ⟨S131072x1023, .i1⟩
  | .hbm, ⟨30, _⟩ => ⟨S131072x1023, .f32⟩
  | .hbm, ⟨31, _⟩ => ⟨S131072x1023, .f32⟩
  | .hbm, ⟨32, _⟩ => ⟨S131072x1023, .f32⟩
  | .hbm, ⟨33, _⟩ => ⟨S131072x8, .f32⟩
  | .hbm, ⟨34, _⟩ => ⟨S1x8, .f32⟩
  | .hbm, ⟨35, _⟩ => ⟨S131072x8, .f32⟩
  | .hbm, ⟨36, _⟩ => ⟨S131072x8, .f32⟩
  | .hbm, ⟨37, _⟩ => ⟨S_, .f32⟩
  | .hbm, ⟨38, _⟩ => ⟨S131072x8, .f32⟩
  | .hbm, ⟨39, _⟩ => ⟨S131072x8, .f32⟩
  | .hbm, ⟨40, _⟩ => ⟨S131072x8, .f32⟩
  | .hbm, ⟨41, _⟩ => ⟨S1x8, .f32⟩
  | .hbm, ⟨42, _⟩ => ⟨S131072x8, .f32⟩
  | .hbm, ⟨43, _⟩ => ⟨S131072x8, .f32⟩
  | .hbm, ⟨44, _⟩ => ⟨S_, .f32⟩
  | .hbm, ⟨45, _⟩ => ⟨S131072x8, .f32⟩
  | .hbm, ⟨46, _⟩ => ⟨S131072x8, .f32⟩
  | .hbm, ⟨47, _⟩ => ⟨S131072x3, .f32⟩
  | .hbm, ⟨48, _⟩ => ⟨S1x3, .f32⟩
  | .hbm, ⟨49, _⟩ => ⟨S131072x3, .f32⟩
  | .hbm, ⟨50, _⟩ => ⟨S131072x3, .f32⟩
  | .hbm, ⟨51, _⟩ => ⟨S16x8192x3, .f32⟩
  | _, _ => ⟨S16x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_cst_1 : Ref sig .tc := ⟨.hbm, 9, rfl⟩
abbrev main_cst_2 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_call0_cst : Ref sig .tc := ⟨.hbm, 37, rfl⟩
abbrev main_call0_v0 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_call1_cst : Ref sig .tc := ⟨.hbm, 44, rfl⟩
abbrev main_call1_v0 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]

class Facts₀ : Prop where
  shapeCasts_S16x8192_S131072x1 : S16x8192.ShapeCasts S131072x1
  bcast_S1023_S1x1023_1 : S1023.BroadcastsInDim S1x1023 (![1] : Fin 1 → Fin S1x1023.rank)
  bcast_S131072x1_S131072x1023_0_1 : S131072x1.BroadcastsInDim S131072x1023 (![0, 1] : Fin 2 → Fin S131072x1023.rank)
  bcast_S1x1023_S131072x1023_0_1 : S1x1023.BroadcastsInDim S131072x1023 (![0, 1] : Fin 2 → Fin S131072x1023.rank)
  bcast_S8_S1x8_1 : S8.BroadcastsInDim S1x8 (![1] : Fin 1 → Fin S1x8.rank)
  bcast_S1x8_S131072x8_0_1 : S1x8.BroadcastsInDim S131072x8 (![0, 1] : Fin 2 → Fin S131072x8.rank)
  bcast_S_S131072x8 : S_.BroadcastsInDim S131072x8 (![] : Fin 0 → Fin S131072x8.rank)
  bcast_S3_S1x3_1 : S3.BroadcastsInDim S1x3 (![1] : Fin 1 → Fin S1x3.rank)
  bcast_S1x3_S131072x3_0_1 : S1x3.BroadcastsInDim S131072x3 (![0, 1] : Fin 2 → Fin S131072x3.rank)
  shapeCasts_S131072x3_S16x8192x3 : S131072x3.ShapeCasts S16x8192x3
  dot_S131072x1023_S1023x8_S131072x8_1_0_0_1_n_n_wf : DotDims.WF S131072x1023 S1023x8 S131072x8 [1] [0] [0] [1] [] []
  dot_S131072x8_S8x8_S131072x8_1_0_0_1_n_n_wf : DotDims.WF S131072x8 S8x8 S131072x8 [1] [0] [0] [1] [] []
  dot_S131072x8_S8x3_S131072x3_1_0_0_1_n_n_wf : DotDims.WF S131072x8 S8x3 S131072x3 [1] [0] [0] [1] [] []

variable [Facts₀]

def dot_S131072x1023_S1023x8_S131072x8_1_0_0_1_n_n : DotDims S131072x1023 S1023x8 S131072x8 where
  lhsContracting := [1]
  rhsContracting := [0]
  lhsNonContracting := [0]
  rhsNonContracting := [1]
  lhsBatch := []
  rhsBatch := []
  wf := dot_S131072x1023_S1023x8_S131072x8_1_0_0_1_n_n_wf
def dot_S131072x8_S8x8_S131072x8_1_0_0_1_n_n : DotDims S131072x8 S8x8 S131072x8 where
  lhsContracting := [1]
  rhsContracting := [0]
  lhsNonContracting := [0]
  rhsNonContracting := [1]
  lhsBatch := []
  rhsBatch := []
  wf := dot_S131072x8_S8x8_S131072x8_1_0_0_1_n_n_wf
def dot_S131072x8_S8x3_S131072x3_1_0_0_1_n_n : DotDims S131072x8 S8x3 S131072x3 where
  lhsContracting := [1]
  rhsContracting := [0]
  lhsNonContracting := [0]
  rhsNonContracting := [1]
  lhsBatch := []
  rhsBatch := []
  wf := dot_S131072x8_S8x3_S131072x3_1_0_0_1_n_n_wf

class Facts : Prop extends Facts₀ where

variable [Facts]
-- ==== Proof.KerInputs.lean ====
/-
  What the kernel's launch finds in each array it stages, as a function of the program's arguments.

  Before the launch the program lays out its operands: the samples t : [16, 8192] are reshaped to one column of
  131072 rows; each of the four end-point tables (1024 words) becomes one row; the first weight matrix [1023, 8] gets
  one more row of the converted integer zero; and the three bias vectors become one-row matrices. The second and third
  weight matrices are staged as launched. Each array is read here at an entry: row n = b * 8192 + s of the column is
  the sample t (b, s); entry q of a table row is the word q of the table; row q < 1023 of the padded matrix is row q of
  the matrix; entry k of a bias row is entry k of the vector.
-/
import proofs.«156427_j66657892434287_1_alg».proof.Proof.Gen.KernelIdeal.Frame
import Idealize.ShloMosaic.Lib.StableHlo.Run
import Idealize.ShloMosaic.Lib.Pipeline.Value
import Idealize.ShloMosaic.Lib.ValueLayout
import Idealize.ShloMosaic.Lib.KernelVsHost
import Idealize.ShloMosaic.PureOps.Ideal

noncomputable section

namespace Cert.Haar.Ker

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-! ## The arrays as the launch finds them -/

/-- The sample column is the reshape of the samples. -/
theorem V_v4 (c : Dev nD) : (V m c main_v4 : S131072x1.Idx → EReal)
    = shapeCast S131072x1 (m ((c : Thread nD τ).loc main_arg0)) shapeCasts_S16x8192_S131072x1 := by
  dsimp only [Gen.V, Gen.V0]
  simp only [Gen.hostOps0, Gen.hostOps0_1, Gen.hostOps0_2, List.flatten_cons, List.flatten_nil, List.append_nil,
    List.cons_append, List.nil_append]
  after_results
  rfl

/-- The row of the left halves' lower ends. -/
theorem V_v0 (c : Dev nD) : (V m c main_v0 : S1x1024.Idx → EReal)
    = broadcastInDim S1x1024 ![1] bcast_S1024_S1x1024_1 (fun i => FloatOps.ofBits (F := Ideal) .f32 (lit0 (S1024.rowMajor i))) := by
  dsimp only [Gen.V, Gen.V0]
  simp only [Gen.hostOps0, Gen.hostOps0_1, Gen.hostOps0_2, List.flatten_cons, List.flatten_nil, List.append_nil,
    List.cons_append, List.nil_append]
  after_results
  rfl

/-- The row of the left halves' upper ends. -/
theorem V_v1 (c : Dev nD) : (V m c main_v1 : S1x1024.Idx → EReal)
    = broadcastInDim S1x1024 ![1] bcast_S1024_S1x1024_1 (fun i => FloatOps.ofBits (F := Ideal) .f32 (lit1 (S1024.rowMajor i))) := by
  dsimp only [Gen.V, Gen.V0]
  simp only [Gen.hostOps0, Gen.hostOps0_1, Gen.hostOps0_2, List.flatten_cons, List.flatten_nil, List.append_nil,
    List.cons_append, List.nil_append]
  after_results
  rfl

/-- The row of the right halves' lower ends. -/
theorem V_v2 (c : Dev nD) : (V m c main_v2 : S1x1024.Idx → EReal)
    = broadcastInDim S1x1024 ![1] bcast_S1024_S1x1024_1 (fun i => FloatOps.ofBits (F := Ideal) .f32 (lit2 (S1024.rowMajor i))) := by
  dsimp only [Gen.V, Gen.V0]
  simp only [Gen.hostOps0, Gen.hostOps0_1, Gen.hostOps0_2, List.flatten_cons, List.flatten_nil, List.append_nil,
    List.cons_append, List.nil_append]
  after_results
  rfl

/-- The row of the right halves' upper ends. -/
theorem V_v3 (c : Dev nD) : (V m c main_v3 : S1x1024.Idx → EReal)
    = broadcastInDim S1x1024 ![1] bcast_S1024_S1x1024_1 (fun i => FloatOps.ofBits (F := Ideal) .f32 (lit3 (S1024.rowMajor i))) := by
  dsimp only [Gen.V, Gen.V0]
  simp only [Gen.hostOps0, Gen.hostOps0_1, Gen.hostOps0_2, List.flatten_cons, List.flatten_nil, List.append_nil,
    List.cons_append, List.nil_append]
  after_results
  rfl

/-- The first weight matrix with one more row of the converted integer zero. -/
theorem V_v5 (c : Dev nD) : (V m c main_v5 : S1024x8.Idx → EReal)
    = pad S1024x8 ![0, 0] ![1, 0] ![0, 0] (m ((c : Thread nD τ).loc main_arg1))
        (sitofp (F := Ideal) .f32 (constantI S_ 32 0#32)) pads_S1023x8_S1024x8_010_000 h_S_ := by
  dsimp only [Gen.V, Gen.V0]
  simp only [Gen.hostOps0, Gen.hostOps0_1, Gen.hostOps0_2, List.flatten_cons, List.flatten_nil, List.append_nil,
    List.cons_append, List.nil_append]
  after_results
  rfl

/-- The first bias as one row. -/
theorem V_v6 (c : Dev nD) : (V m c main_v6 : S1x8.Idx → EReal)
    = shapeCast S1x8 (m ((c : Thread nD τ).loc main_arg2)) shapeCasts_S8_S1x8 := by
  dsimp only [Gen.V, Gen.V0]
  simp only [Gen.hostOps0, Gen.hostOps0_1, Gen.hostOps0_2, List.flatten_cons, List.flatten_nil, List.append_nil,
    List.cons_append, List.nil_append]
  after_results
  rfl

/-- The second bias as one row. -/
theorem V_v7 (c : Dev nD) : (V m c main_v7 : S1x8.Idx → EReal)
    = shapeCast S1x8 (m ((c : Thread nD τ).loc main_arg4)) shapeCasts_S8_S1x8 := by
  dsimp only [Gen.V, Gen.V0]
  simp only [Gen.hostOps0, Gen.hostOps0_1, Gen.hostOps0_2, List.flatten_cons, List.flatten_nil, List.append_nil,
    List.cons_append, List.nil_append]
  after_results
  rfl

/-- The third bias as one row. -/
theorem V_v8 (c : Dev nD) : (V m c main_v8 : S1x3.Idx → EReal)
    = shapeCast S1x3 (m ((c : Thread nD τ).loc main_arg6)) shapeCasts_S3_S1x3 := by
  dsimp only [Gen.V, Gen.V0]
  simp only [Gen.hostOps0, Gen.hostOps0_1, Gen.hostOps0_2, List.flatten_cons, List.flatten_nil, List.append_nil,
    List.cons_append, List.nil_append]
  after_results
  rfl

/-! ## Each read at an entry -/

/-- Row n = b * 8192 + s of the sample column is the sample (b, s). -/
theorem column_apply {α : Type} (a0 : S16x8192.Idx → α) (n : Fin 131072) (b : Fin 16) (s : Fin 8192)
    (h : n.val = b.val * 8192 + s.val) :
    shapeCast S131072x1 a0 shapeCasts_S16x8192_S131072x1 (ix2 n (0 : Fin 1)) = a0 (ix2 b s) :=
  shapeCast_apply a0 shapeCasts_S16x8192_S131072x1 (ix2 n (0 : Fin 1)) (ix2 b s) (by
    rw [Shape.rowMajor_val_two, Shape.rowMajor_val_two]
    show b.val * 8192 + s.val = n.val * 1 + 0
    omega)

/-- Entry q of a table laid out as one row is the table's word q. -/
theorem tableRow_apply (tab : Fin 1024 → BitVec 32) (q : Fin 1024) :
    broadcastInDim S1x1024 ![1] bcast_S1024_S1x1024_1 (fun i => FloatOps.ofBits (F := Ideal) .f32 (tab (S1024.rowMajor i)))
        (ix2 (0 : Fin 1) q)
      = Ideal.ofBits .f32 (tab q) := by
  rw [broadcastInDim_apply (![1] : Fin 1 → Fin 2) bcast_S1024_S1x1024_1 _ (ix2 (0 : Fin 1) q) (ix1 q) (fun a => by
    match a with
    | ⟨0, _⟩ => rfl)]
  show Ideal.ofBits .f32 (tab (S1024.rowMajor (ix1 q))) = _
  refine congrArg (fun z => Ideal.ofBits .f32 (tab z)) (Fin.ext ?_)
  rw [Shape.rowMajor_val_one]

/-- Row q < 1023 of the padded matrix is row q of the matrix. -/
theorem padded_apply {α : Type} (a1 : S1023x8.Idx → α) (v : S_.Idx → α) (q : Fin 1023) (k : Fin 8) :
    pad S1024x8 ![0, 0] ![1, 0] ![0, 0] a1 v pads_S1023x8_S1024x8_010_000 h_S_ (ix2 q.castSucc k) = a1 (ix2 q k) :=
  pad_apply_of_inside ![0, 0] ![1, 0] ![0, 0] a1 v pads_S1023x8_S1024x8_010_000 h_S_ (ix2 q.castSucc k) (ix2 q k) (fun a => by
    match a with
    | ⟨0, _⟩ => show q.val = 0 + q.val * (0 + 1); omega
    | ⟨1, _⟩ => show k.val = 0 + k.val * (0 + 1); omega)

end Cert.Haar.Ker

end
-- ==== Proof.Spec.lean ====
/-
  The Haar-feature network as one function of its arguments, on the extended reals.

  A sample x is turned into 1023 Haar features: feature k is the indicator of the left half-interval
  [l0 k, h0 k) minus the indicator of the right half-interval [l1 k, h1 k), each indicator a one-bit word read as the
  number 0 or 1. Three affine layers follow, the first two with the positive part:
      h1 j  = max (sum over k < 1023 of feature k * W1 (k, j) + b1 j) 0
      h2 j  = max (sum over k < 8 of h1 k * W2 (k, j) + b2 j) 0
      out j =      sum over k < 8 of h2 k * W3 (k, j) + b3 j.
  The array result at (b, s, j) is out j of the sample t (b, s).

  Two small facts are kept here as well: an interval whose two ends coincide is empty, so a feature built on two such
  intervals is zero at every x; and a sum over 1024 terms whose last term is zero is the sum of the first 1023.
-/
import Idealize.ShloMosaic.PureOps.Ideal
import Idealize.ShloMosaic.Lib.ValueIdx

noncomputable section

open scoped BigOperators

namespace Cert.Haar

open Idealize.ShloMosaic Idealize.ShloMosaic.ValueIdx

/-- The indicator bit of the half-open interval [lo, hi) at x. -/
def ind (x lo hi : EReal) : BitVec 1 := IntOp.andi (Ideal.cmp .oge x lo) (Ideal.cmp .olt x hi)

/-- A one-bit word read as a number: 0 or 1. -/
def bitVal (b : BitVec 1) : EReal := ((b.toNat : ℝ) : EReal)

/-- One Haar feature of x: the indicator of the left half minus the indicator of the right half. -/
def cell (x l0 h0 l1 h1 : EReal) : EReal := bitVal (ind x l0 h0) - bitVal (ind x l1 h1)

/-- An interval [c, c) is empty. -/
theorem ind_empty (x c : EReal) : ind x c c = 0#1 := by
  unfold ind
  by_cases h : c ≤ x
  · have h' : ¬ x < c := not_lt.mpr h
    simp [Ideal.cmp, IntOp.andi, h, h']
  · simp [Ideal.cmp, IntOp.andi, h]

/-- A feature on two empty intervals vanishes. -/
theorem cell_empty (x c d : EReal) : cell x c c d d = 0 := by
  unfold cell
  rw [ind_empty, ind_empty]
  simp [bitVal]

/-- The first layer at a sample. -/
def hidden1 (l0 h0 l1 h1 : Fin 1023 → EReal) (W1 : (⟨2, ![1023, 8]⟩ : Shape).Idx → EReal)
    (b1 : (⟨1, ![8]⟩ : Shape).Idx → EReal) (x : EReal) (j : Fin 8) : EReal :=
  max ((∑ k : Fin 1023, cell x (l0 k) (h0 k) (l1 k) (h1 k) * W1 (ix2 k j)) + b1 (ix1 j)) 0

/-- The second layer of a hidden vector. -/
def hidden2 (W2 : (⟨2, ![8, 8]⟩ : Shape).Idx → EReal) (b2 : (⟨1, ![8]⟩ : Shape).Idx → EReal)
    (h : Fin 8 → EReal) (j : Fin 8) : EReal :=
  max ((∑ k : Fin 8, h k * W2 (ix2 k j)) + b2 (ix1 j)) 0

/-- The output layer of a hidden vector. -/
def outRow (W3 : (⟨2, ![8, 3]⟩ : Shape).Idx → EReal) (b3 : (⟨1, ![3]⟩ : Shape).Idx → EReal)
    (h : Fin 8 → EReal) (j : Fin 3) : EReal :=
  (∑ k : Fin 8, h k * W3 (ix2 k j)) + b3 (ix1 j)

/-- The whole network at one sample x, output feature j. -/
def rowNet (l0 h0 l1 h1 : Fin 1023 → EReal) (W1 : (⟨2, ![1023, 8]⟩ : Shape).Idx → EReal)
    (b1 : (⟨1, ![8]⟩ : Shape).Idx → EReal) (W2 : (⟨2, ![8, 8]⟩ : Shape).Idx → EReal)
    (b2 : (⟨1, ![8]⟩ : Shape).Idx → EReal) (W3 : (⟨2, ![8, 3]⟩ : Shape).Idx → EReal)
    (b3 : (⟨1, ![3]⟩ : Shape).Idx → EReal) (x : EReal) (j : Fin 3) : EReal :=
  outRow W3 b3 (hidden2 W2 b2 (hidden1 l0 h0 l1 h1 W1 b1 x)) j

/-- The result array at (b, s, j): the network at the sample t (b, s). -/
def netAt (l0 h0 l1 h1 : Fin 1023 → EReal) (t : (⟨2, ![16, 8192]⟩ : Shape).Idx → EReal)
    (W1 : (⟨2, ![1023, 8]⟩ : Shape).Idx → EReal) (b1 : (⟨1, ![8]⟩ : Shape).Idx → EReal)
    (W2 : (⟨2, ![8, 8]⟩ : Shape).Idx → EReal) (b2 : (⟨1, ![8]⟩ : Shape).Idx → EReal)
    (W3 : (⟨2, ![8, 3]⟩ : Shape).Idx → EReal) (b3 : (⟨1, ![3]⟩ : Shape).Idx → EReal)
    (b : Fin 16) (s : Fin 8192) (j : Fin 3) : EReal :=
  rowNet l0 h0 l1 h1 W1 b1 W2 b2 W3 b3 (t (ix2 b s)) j

/-- A sum of 1024 terms whose last term is zero is the sum of the first 1023. -/
theorem sum_drop_last (f : Fin 1024 → EReal) (h : f (Fin.last 1023) = 0) :
    ∑ k : Fin 1024, f k = ∑ k : Fin 1023, f k.castSucc := by
  rw [Fin.sum_univ_castSucc, h, add_zero]

end Cert.Haar

end
-- ==== Proof.LibMatmulNN.lean ====
/-
  A matrix product read at an entry, at the ideal instance.

  For a `tpu.matmul` whose dimension numbers are the plain ones — the left operand M×K contracted on its second axis,
  the right operand K×N contracted on its first, no batch axis — into the zero accumulator, the entry at row `a` and
  column `b` is the textbook sum over `k : Fin K` of `lhs (a, k) · rhs (k, b)` on the extended reals: the
  contraction's one-axis index set is identified with `Fin K` and each operand index is named by its coordinates.
  The lemma is stated for any dimension-number record with those five lists, so it applies to every printed record
  of this form whatever the extents.
-/
import Idealize.ShloMosaic.PureOps.Ideal.Laws
import Idealize.ShloMosaic.Lib.ValueIdx

noncomputable section

open scoped BigOperators

namespace Cert.LibMatmulNN

open Idealize.ShloMosaic Idealize.ShloMosaic.ValueIdx

variable {M K N : Nat} {φ₁ φ₂ : FTy}

/-- The contraction shape of a record with one left contracting axis has rank one. -/
theorem contr_rank (d : DotDims ⟨2, ![M, K]⟩ ⟨2, ![K, N]⟩ ⟨2, ![M, N]⟩) (hlc : d.lhsContracting = [1]) :
    d.contr.rank = 1 := by
  rw [d.rank_contr, hlc]; rfl

/-- Its one extent is the left operand's second. -/
theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  have h := d.size_contr 0 (by rw [hlc]; exact Nat.one_pos)
  rw [h]
  simp only [hlc, List.getElem_cons_zero]
  rfl

/-- A rank-2 index read at a position known to be the first is its first coordinate. -/
theorem ix2_val_zero {n0 n1 : Nat} (a : Fin n0) (b : Fin n1) (p : Nat) (hp : p < 2) (h : p = 0) :
    (ix2 a b ⟨p, hp⟩).val = a.val := by subst h; rfl

/-- At a position known to be the second, its second coordinate. -/
theorem ix2_val_one {n0 n1 : Nat} (a : Fin n0) (b : Fin n1) (p : Nat) (hp : p < 2) (h : p = 1) :
    (ix2 a b ⟨p, hp⟩).val = b.val := by subst h; rfl

/-- The left operand's index at output `(a, b)` and contraction position `k` is `(a, k)`. -/
theorem lhsIdx_eq (d : DotDims ⟨2, ![M, K]⟩ ⟨2, ![K, N]⟩ ⟨2, ![M, N]⟩)
    (hlc : d.lhsContracting = [1]) (hln : d.lhsNonContracting = [0]) (hlb : d.lhsBatch = [])
    (a : Fin M) (b : Fin N) (k : Fin K) :
    d.lhsIdx (ix2 a b) ((contrEquiv1 d K (contr_rank d hlc) (contr_size d hlc)).symm k) = ix2 a k := by
  funext c
  apply Fin.ext
  match c with
  | ⟨0, _⟩ =>
    show (d.lhsIdx (ix2 a b) _ (0 : Fin 2)).val = a.val
    have hnb : (0 : Fin 2) ∉ d.lhsBatch := by rw [hlb]; exact List.not_mem_nil
    have hn : (0 : Fin 2) ∈ d.lhsNonContracting := by rw [hln]; exact List.mem_singleton.mpr rfl
    unfold DotDims.lhsIdx
    rw [dif_neg hnb, dif_pos hn]
    simp only [Fin.val_cast]
    exact ix2_val_zero a b _ _ (by simp [hlb, hln])
  | ⟨1, _⟩ =>
    show (d.lhsIdx (ix2 a b) _ (1 : Fin 2)).val = k.val
    rw [DotDims.lhsIdx_val_of_single d hlc]
    exact contrEquiv1_symm_val d K (contr_rank d hlc) (contr_size d hlc) k

/-- The right operand's index there is `(k, b)`. -/
theorem rhsIdx_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (a : Fin M) (b : Fin N) (k : Fin K) :
    d.rhsIdx (ix2 a b) ((contrEquiv1 d K (contr_rank d hlc) (contr_size d hlc)).symm k) = ix2 k b := by
  funext c
  apply Fin.ext
  match c with
  | ⟨0, _⟩ =>
    show (d.rhsIdx (ix2 a b) _ (0 : Fin 2)).val = k.val
    rw [DotDims.rhsIdx_val_of_single d hrc]
    exact contrEquiv1_symm_val d K (contr_rank d hlc) (contr_size d hlc) k
  | ⟨1, _⟩ =>
    show (d.rhsIdx (ix2 a b) _ (1 : Fin 2)).val = b.val
    have hnb : (1 : Fin 2) ∉ d.rhsBatch := by rw [hrb]; exact List.not_mem_nil
    have hn : (1 : Fin 2) ∈ d.rhsNonContracting := by rw [hrn]; exact List.mem_singleton.mpr rfl
    unfold DotDims.rhsIdx
    rw [dif_neg hnb, dif_pos hn]
    simp only [Fin.val_cast]
    exact ix2_val_one a b _ _ (by simp [hlb, hln, hrn])

/-- A plain matrix product into the zero accumulator, read at the entry `(a, b)`: the sum over `k` of the left
    operand's `(a, k)` times the right operand's `(k, b)`. -/
theorem matmul_zero_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    FloatOps.matmul d prec lhs rhs (constant (F := Ideal) ⟨2, ![M, N]⟩ .f32 0x00000000#32) (ix2 a b)
      = ∑ k : Fin K, lhs (ix2 a k) * rhs (ix2 k b) := by
  rw [Ideal.matmul_constant_zero_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

/-- The same for the product written with the vector operation `matmul`, as a printed kernel body applies it. -/
theorem matmul_zero_apply' (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    matmul d prec lhs rhs (constant (F := Ideal) ⟨2, ![M, N]⟩ .f32 0x00000000#32) (ix2 a b)
      = ∑ k : Fin K, lhs (ix2 a k) * rhs (ix2 k b) :=
  matmul_zero_apply d hlc hrc hln hrn hlb hrb prec lhs rhs a b

end Cert.LibMatmulNN

end
-- ==== Proof.LibAffineBlock.lean ====
/-
  An affine map applied to a block, read at an entry, at the ideal instance.

  A matrix product of an M×K block with a K×N matrix into the zero accumulator, plus a one-row bias broadcast over
  the M rows, has at row `r` and column `j` the value `(∑ k, x (r, k) · W (k, j)) + b (0, j)`: the product is the
  textbook sum, and a row broadcast reads the operand's one row. Stated for any plain dimension-number record.
-/
import proofs.«156427_j66657892434287_1_alg».proof.Proof.LibMatmulNN
import Idealize.ShloMosaic.Lib.ValueLayout

noncomputable section

open scoped BigOperators

namespace Cert.LibAffineBlock

open Idealize.ShloMosaic Idealize.ShloMosaic.ValueIdx

variable {M K N : Nat} {φ₁ φ₂ : FTy}

/-- The product plus the broadcast bias at the entry `(r, j)`. -/
theorem affine_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (x : FVec Ideal ⟨2, ![M, K]⟩ φ₁) (W : FVec Ideal ⟨2, ![K, N]⟩ φ₂) (b : FVec Ideal ⟨2, ![1, N]⟩ .f32)
    (hb : (⟨2, ![1, N]⟩ : Shape).Broadcasts ⟨2, ![M, N]⟩) (r : Fin M) (j : Fin N) :
    addf (matmul d prec x W (constant (F := Ideal) ⟨2, ![M, N]⟩ .f32 0x00000000#32)) (broadcastTo ⟨2, ![M, N]⟩ b hb) (ix2 r j)
      = (∑ k : Fin K, x (ix2 r k) * W (ix2 k j)) + b (ix2 (0 : Fin 1) j) := by
  rw [addf_apply, Cert.LibMatmulNN.matmul_zero_apply' d hlc hrc hln hrn hlb hrb prec x W r j,
    broadcastTo_1b_ab_apply b hb r j]

end Cert.LibAffineBlock

end
-- ==== Proof.KerPayload.lean ====
/-
  The kernel body's stored value read at an entry, at the ideal instance.

  From a block of 2048 samples (one column), the four end-point rows of 1024 entries, a 1024x8 weight block and the
  remaining small blocks, the body stores a 2048x3 array. Its entry (p, j) is the three-layer network of the sample in
  row p, written over the blocks as they are loaded: the 1024 features of the sample (for each column q the indicator
  of the left half-interval minus the indicator of the right one), an affine layer with the positive part, a second
  one, and the output layer. A change of float format is the identity here, a matrix product into the zero accumulator
  is the textbook sum, a row broadcast reads its one row and a column broadcast its one column.
-/
import proofs.«156427_j66657892434287_1_alg».proof.Proof.Gen.KernelIdeal.Skeleton
import proofs.«156427_j66657892434287_1_alg».proof.Proof.Spec
import proofs.«156427_j66657892434287_1_alg».proof.Proof.LibAffineBlock
import Idealize.ShloMosaic.Lib.Pipeline.Value
import Idealize.ShloMosaic.Lib.ValueLayout

noncomputable section

open scoped BigOperators

namespace Cert.Haar.Ker

open Cert.KernelIdeal Cert.KernelIdeal.Gen Idealize.ShloMosaic Idealize.ShloMosaic.ValueIdx

/-- A column [a, 1] broadcast to [a, b] reads, at (p, q), the column's entry (p, 0). -/
theorem colBroadcast_apply {a b : ℕ} {α : Type} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A one-bit word widened to 32 bits and read as a signed integer is the bit's value. -/
theorem widened_bit (b : BitVec 1) : (((b.setWidth 32).toInt : ℝ) : EReal) = Cert.Haar.bitVal b := by
  rcases BitVec.eq_zero_or_eq_one b with h | h <;> subst h <;> simp [Cert.Haar.bitVal]

/-- The feature of the sample in row p at column q, over the loaded blocks. -/
def feat (x0 : FVec Ideal S2048x1 .f32) (x1 x2 x3 x4 : FVec Ideal S1x1024 .f32) (p : Fin 2048) (q : Fin 1024) : EReal :=
  Cert.Haar.cell (x0 (ix2 p (0 : Fin 1))) (x1 (ix2 (0 : Fin 1) q)) (x2 (ix2 (0 : Fin 1) q)) (x3 (ix2 (0 : Fin 1) q))
    (x4 (ix2 (0 : Fin 1) q))

/-- The first hidden layer of row p. -/
def hid1 (x0 : FVec Ideal S2048x1 .f32) (x1 x2 x3 x4 : FVec Ideal S1x1024 .f32) (x5 : FVec Ideal S1024x8 .f32)
    (x6 : FVec Ideal S1x8 .f32) (p : Fin 2048) (k : Fin 8) : EReal :=
  max ((∑ q : Fin 1024, feat x0 x1 x2 x3 x4 p q * x5 (ix2 q k)) + x6 (ix2 (0 : Fin 1) k)) 0

/-- The second hidden layer of row p. -/
def hid2 (x0 : FVec Ideal S2048x1 .f32) (x1 x2 x3 x4 : FVec Ideal S1x1024 .f32) (x5 : FVec Ideal S1024x8 .f32)
    (x6 : FVec Ideal S1x8 .f32) (x7 : FVec Ideal S8x8 .f32) (x8 : FVec Ideal S1x8 .f32) (p : Fin 2048) (k : Fin 8) : EReal :=
  max ((∑ k' : Fin 8, hid1 x0 x1 x2 x3 x4 x5 x6 p k' * x7 (ix2 k' k)) + x8 (ix2 (0 : Fin 1) k)) 0

/-- The stored entry (p, j). -/
def stored (x0 : FVec Ideal S2048x1 .f32) (x1 x2 x3 x4 : FVec Ideal S1x1024 .f32) (x5 : FVec Ideal S1024x8 .f32)
    (x6 : FVec Ideal S1x8 .f32) (x7 : FVec Ideal S8x8 .f32) (x8 : FVec Ideal S1x8 .f32) (x9 : FVec Ideal S8x3 .f32)
    (x10 : FVec Ideal S1x3 .f32) (p : Fin 2048) (j : Fin 3) : EReal :=
  (∑ k : Fin 8, hid2 x0 x1 x2 x3 x4 x5 x6 x7 x8 p k * x9 (ix2 k j)) + x10 (ix2 (0 : Fin 1) j)

/-- The feature array the body forms (the difference of the two widened indicator arrays, narrowed), at (p, q). -/
def featVec (x0 : FVec Ideal S2048x1 .f32) (x1 x2 x3 x4 : FVec Ideal S1x1024 .f32) : FVec Ideal S2048x1024 .bf16 :=
  truncf .bf16 (subf
    (sitofp .f32 (extui 32 (andi
      (cmpf .oge (broadcastTo S2048x1024 (shapeCast S2048x1 x0 shapeCasts_S2048x1_S2048x1) broadcasts_S2048x1_S2048x1024)
        (broadcastTo S2048x1024 x1 broadcasts_S1x1024_S2048x1024))
      (cmpf .olt (broadcastTo S2048x1024 (shapeCast S2048x1 x0 shapeCasts_S2048x1_S2048x1) broadcasts_S2048x1_S2048x1024)
        (broadcastTo S2048x1024 x2 broadcasts_S1x1024_S2048x1024))) natLt_1_32))
    (sitofp .f32 (extui 32 (andi
      (cmpf .oge (broadcastTo S2048x1024 (shapeCast S2048x1 x0 shapeCasts_S2048x1_S2048x1) broadcasts_S2048x1_S2048x1024)
        (broadcastTo S2048x1024 x3 broadcasts_S1x1024_S2048x1024))
      (cmpf .olt (broadcastTo S2048x1024 (shapeCast S2048x1 x0 shapeCasts_S2048x1_S2048x1) broadcasts_S2048x1_S2048x1024)
        (broadcastTo S2048x1024 x4 broadcasts_S1x1024_S2048x1024))) natLt_1_32))) bitsLt_bf16_f32

theorem featVec_apply (x0 : FVec Ideal S2048x1 .f32) (x1 x2 x3 x4 : FVec Ideal S1x1024 .f32) (p : Fin 2048) (q : Fin 1024) :
    featVec x0 x1 x2 x3 x4 (ix2 p q) = feat x0 x1 x2 x3 x4 p q := by
  have hc : broadcastTo S2048x1024 (shapeCast S2048x1 x0 shapeCasts_S2048x1_S2048x1) broadcasts_S2048x1_S2048x1024 (ix2 p q)
      = x0 (ix2 p (0 : Fin 1)) := by
    rw [shapeCast_self]
    exact colBroadcast_apply x0 broadcasts_S2048x1_S2048x1024 p q
  have hr : ∀ x : FVec Ideal S1x1024 .f32, broadcastTo S2048x1024 x broadcasts_S1x1024_S2048x1024 (ix2 p q) = x (ix2 (0 : Fin 1) q) :=
    fun x => broadcastTo_1b_ab_apply x broadcasts_S1x1024_S2048x1024 p q
  show ((((IntOp.andi (Ideal.cmp .oge _ _) (Ideal.cmp .olt _ _)).setWidth 32).toInt : ℝ) : EReal)
      - ((((IntOp.andi (Ideal.cmp .oge _ _) (Ideal.cmp .olt _ _)).setWidth 32).toInt : ℝ) : EReal) = _
  rw [hc, hr x1, hr x2, hr x3, hr x4, widened_bit, widened_bit]
  rfl

/-- The first hidden layer as the body forms it: product with the weight block, bias row, positive part, narrowed. -/
def lay1Vec (x0 : FVec Ideal S2048x1 .f32) (x1 x2 x3 x4 : FVec Ideal S1x1024 .f32) (x5 : FVec Ideal S1024x8 .f32)
    (x6 : FVec Ideal S1x8 .f32) : FVec Ideal S2048x8 .bf16 :=
  truncf .bf16 (maximumf (addf
    (matmul dot_S2048x1024_S1024x8_S2048x8_1_0_0_1_n_n none (featVec x0 x1 x2 x3 x4)
      (truncf .bf16 (shapeCast S1024x8 x5 shapeCasts_S1024x8_S1024x8) bitsLt_bf16_f32) (constant S2048x8 .f32 0x00000000#32))
    (broadcastTo S2048x8 (shapeCast S1x8 x6 shapeCasts_S1x8_S1x8) broadcasts_S1x8_S2048x8))
    (broadcast S2048x8 (Scalar.ofBits .f32 0x00000000#32 : Ideal .f32))) bitsLt_bf16_f32

/-- The second hidden layer as the body forms it. -/
def lay2Vec (x0 : FVec Ideal S2048x1 .f32) (x1 x2 x3 x4 : FVec Ideal S1x1024 .f32) (x5 : FVec Ideal S1024x8 .f32)
    (x6 : FVec Ideal S1x8 .f32) (x7 : FVec Ideal S8x8 .f32) (x8 : FVec Ideal S1x8 .f32) : FVec Ideal S2048x8 .bf16 :=
  truncf .bf16 (maximumf (addf
    (matmul dot_S2048x8_S8x8_S2048x8_1_0_0_1_n_n none (lay1Vec x0 x1 x2 x3 x4 x5 x6)
      (truncf .bf16 x7 bitsLt_bf16_f32) (constant S2048x8 .f32 0x00000000#32))
    (broadcastTo S2048x8 (shapeCast S1x8 x8 shapeCasts_S1x8_S1x8) broadcasts_S1x8_S2048x8))
    (broadcast S2048x8 (Scalar.ofBits .f32 0x00000000#32 : Ideal .f32))) bitsLt_bf16_f32

/-- The body's stored value is the output layer over the second hidden layer. -/
theorem pay_eq (x0 : FVec Ideal S2048x1 .f32) (x1 x2 x3 x4 : FVec Ideal S1x1024 .f32) (x5 : FVec Ideal S1024x8 .f32)
    (x6 : FVec Ideal S1x8 .f32) (x7 : FVec Ideal S8x8 .f32) (x8 : FVec Ideal S1x8 .f32) (x9 : FVec Ideal S8x3 .f32)
    (x10 : FVec Ideal S1x3 .f32) :
    k0_pay1 (F := Ideal) (k0_pay2 (F := Ideal) x0 x1 x2 x3 x4 x5 x6 x7) x8 x9 x10
      = addf (matmul dot_S2048x8_S8x3_S2048x3_1_0_0_1_n_n none (lay2Vec x0 x1 x2 x3 x4 x5 x6 x7 x8)
          (truncf .bf16 x9 bitsLt_bf16_f32) (constant S2048x3 .f32 0x00000000#32))
        (broadcastTo S2048x3 (shapeCast S1x3 x10 shapeCasts_S1x3_S1x3) broadcasts_S1x3_S2048x3) := rfl

theorem lay1Vec_apply (x0 : FVec Ideal S2048x1 .f32) (x1 x2 x3 x4 : FVec Ideal S1x1024 .f32) (x5 : FVec Ideal S1024x8 .f32)
    (x6 : FVec Ideal S1x8 .f32) (p : Fin 2048) (k : Fin 8) :
    lay1Vec x0 x1 x2 x3 x4 x5 x6 (ix2 p k) = hid1 x0 x1 x2 x3 x4 x5 x6 p k := by
  have h := Cert.LibAffineBlock.affine_apply dot_S2048x1024_S1024x8_S2048x8_1_0_0_1_n_n rfl rfl rfl rfl rfl rfl none
    (featVec x0 x1 x2 x3 x4)
    (truncf .bf16 (shapeCast S1024x8 x5 shapeCasts_S1024x8_S1024x8) bitsLt_bf16_f32 : FVec Ideal S1024x8 .bf16)
    (shapeCast S1x8 x6 shapeCasts_S1x8_S1x8) broadcasts_S1x8_S2048x8 p k
  show max (_ : EReal) (Ideal.ofBits .f32 0x00000000#32) = _
  rw [Ideal.ofBits_zero_f32]
  unfold hid1
  refine congrArg (fun z => max z 0) (h.trans ?_)
  rw [shapeCast_self, shapeCast_self]
  refine congrArg₂ (· + ·) (Finset.sum_congr rfl fun q _ => ?_) rfl
  rw [featVec_apply]
  rfl

theorem lay2Vec_apply (x0 : FVec Ideal S2048x1 .f32) (x1 x2 x3 x4 : FVec Ideal S1x1024 .f32) (x5 : FVec Ideal S1024x8 .f32)
    (x6 : FVec Ideal S1x8 .f32) (x7 : FVec Ideal S8x8 .f32) (x8 : FVec Ideal S1x8 .f32) (p : Fin 2048) (k : Fin 8) :
    lay2Vec x0 x1 x2 x3 x4 x5 x6 x7 x8 (ix2 p k) = hid2 x0 x1 x2 x3 x4 x5 x6 x7 x8 p k := by
  have h := Cert.LibAffineBlock.affine_apply dot_S2048x8_S8x8_S2048x8_1_0_0_1_n_n rfl rfl rfl rfl rfl rfl none
    (lay1Vec x0 x1 x2 x3 x4 x5 x6) (truncf .bf16 x7 bitsLt_bf16_f32 : FVec Ideal S8x8 .bf16)
    (shapeCast S1x8 x8 shapeCasts_S1x8_S1x8) broadcasts_S1x8_S2048x8 p k
  show max (_ : EReal) (Ideal.ofBits .f32 0x00000000#32) = _
  rw [Ideal.ofBits_zero_f32]
  unfold hid2
  refine congrArg (fun z => max z 0) (h.trans ?_)
  rw [shapeCast_self]
  refine congrArg₂ (· + ·) (Finset.sum_congr rfl fun q _ => ?_) rfl
  rw [lay1Vec_apply]
  rfl

/-- THE STORED ENTRY: the body's value at (p, j) is the network of row p over the loaded blocks. -/
theorem pay_apply (x0 : FVec Ideal S2048x1 .f32) (x1 x2 x3 x4 : FVec Ideal S1x1024 .f32) (x5 : FVec Ideal S1024x8 .f32)
    (x6 : FVec Ideal S1x8 .f32) (x7 : FVec Ideal S8x8 .f32) (x8 : FVec Ideal S1x8 .f32) (x9 : FVec Ideal S8x3 .f32)
    (x10 : FVec Ideal S1x3 .f32) (p : Fin 2048) (j : Fin 3) :
    k0_pay1 (F := Ideal) (k0_pay2 (F := Ideal) x0 x1 x2 x3 x4 x5 x6 x7) x8 x9 x10 (ix2 p j)
      = stored x0 x1 x2 x3 x4 x5 x6 x7 x8 x9 x10 p j := by
  rw [pay_eq]
  have h := Cert.LibAffineBlock.affine_apply dot_S2048x8_S8x3_S2048x3_1_0_0_1_n_n rfl rfl rfl rfl rfl rfl none
    (lay2Vec x0 x1 x2 x3 x4 x5 x6 x7 x8) (truncf .bf16 x9 bitsLt_bf16_f32 : FVec Ideal S8x3 .bf16)
    (shapeCast S1x3 x10 shapeCasts_S1x3_S1x3) broadcasts_S1x3_S2048x3 p j
  unfold stored
  refine h.trans ?_
  rw [shapeCast_self]
  refine congrArg₂ (· + ·) (Finset.sum_congr rfl fun q _ => ?_) rfl
  rw [lay2Vec_apply]
  rfl

end Cert.Haar.Ker

end
-- ==== Proof.Tables.lean ====
/-
  The interval end-point tables of the two programs, compared word by word.

  The kernel's program holds each of the four end-point tables (left half: lower and upper ends; right half: lower
  and upper ends) with 1024 entries, the reference's with 1023. The first 1023 words of each kernel table are the
  reference table's words, and in the one extra position the kernel's lower and upper end of each half are the same
  word, so that both of its intervals are empty there. Each statement is a finite comparison of machine words, decided
  by evaluation.
-/
import proofs.«156427_j66657892434287_1_alg».proof.KernelIdeal
import proofs.«156427_j66657892434287_1_alg».proof.ReferenceIdeal

namespace Cert.Haar.Tables

/-- Lower ends of the left halves. -/
theorem left_lo : ∀ k : Fin 1023, Cert.KernelIdeal.lit0 k.castSucc = Cert.ReferenceIdeal.lit0 k := by decide +kernel

/-- Upper ends of the left halves. -/
theorem left_hi : ∀ k : Fin 1023, Cert.KernelIdeal.lit1 k.castSucc = Cert.ReferenceIdeal.lit1 k := by decide +kernel

/-- Lower ends of the right halves. -/
theorem right_lo : ∀ k : Fin 1023, Cert.KernelIdeal.lit2 k.castSucc = Cert.ReferenceIdeal.lit2 k := by decide +kernel

/-- Upper ends of the right halves. -/
theorem right_hi : ∀ k : Fin 1023, Cert.KernelIdeal.lit3 k.castSucc = Cert.ReferenceIdeal.lit3 k := by decide +kernel

/-- In the extra position the left half's two ends coincide. -/
theorem pad_left : Cert.KernelIdeal.lit0 (Fin.last 1023) = Cert.KernelIdeal.lit1 (Fin.last 1023) := by decide +kernel

/-- In the extra position the right half's two ends coincide. -/
theorem pad_right : Cert.KernelIdeal.lit2 (Fin.last 1023) = Cert.KernelIdeal.lit3 (Fin.last 1023) := by decide +kernel

end Cert.Haar.Tables
-- ==== Proof.KerRow.lean ====
/-
  The stored entry as the network of one sample.

  When the loaded blocks hold what the launch stages — the sample x in row p of the sample block, the end-point rows the
  kernel's tables, the weight block the first weight matrix with one more row, the small blocks the biases as rows and
  the other two matrices — the entry (p, j) the body stores is the network at x with the REFERENCE's tables and 1023
  features: the first 1023 words of each kernel table are the reference's, and in the extra column both intervals are
  empty, so the feature there is zero and its product with whatever the extra weight row holds is zero.
-/
import proofs.«156427_j66657892434287_1_alg».proof.Proof.KerPayload
import proofs.«156427_j66657892434287_1_alg».proof.Proof.Tables

noncomputable section

open scoped BigOperators

namespace Cert.Haar.Ker

open Cert.KernelIdeal Idealize.ShloMosaic Idealize.ShloMosaic.ValueIdx

/-- The stored entry (p, j), over blocks holding the staged operands, is the network of the sample in row p. -/
theorem stored_eq (x0 : FVec Ideal S2048x1 .f32) (x1 x2 x3 x4 : FVec Ideal S1x1024 .f32) (x5 : FVec Ideal S1024x8 .f32)
    (x6 : FVec Ideal S1x8 .f32) (x7 : FVec Ideal S8x8 .f32) (x8 : FVec Ideal S1x8 .f32) (x9 : FVec Ideal S8x3 .f32)
    (x10 : FVec Ideal S1x3 .f32) (p : Fin 2048) (j : Fin 3) (x : EReal)
    (W1 : (⟨2, ![1023, 8]⟩ : Shape).Idx → EReal) (b1 : (⟨1, ![8]⟩ : Shape).Idx → EReal)
    (W2 : (⟨2, ![8, 8]⟩ : Shape).Idx → EReal) (b2 : (⟨1, ![8]⟩ : Shape).Idx → EReal)
    (W3 : (⟨2, ![8, 3]⟩ : Shape).Idx → EReal) (b3 : (⟨1, ![3]⟩ : Shape).Idx → EReal)
    (h0 : x0 (ix2 p (0 : Fin 1)) = x)
    (h1 : ∀ q : Fin 1024, x1 (ix2 (0 : Fin 1) q) = Ideal.ofBits .f32 (Cert.KernelIdeal.lit0 q))
    (h2 : ∀ q : Fin 1024, x2 (ix2 (0 : Fin 1) q) = Ideal.ofBits .f32 (Cert.KernelIdeal.lit1 q))
    (h3 : ∀ q : Fin 1024, x3 (ix2 (0 : Fin 1) q) = Ideal.ofBits .f32 (Cert.KernelIdeal.lit2 q))
    (h4 : ∀ q : Fin 1024, x4 (ix2 (0 : Fin 1) q) = Ideal.ofBits .f32 (Cert.KernelIdeal.lit3 q))
    (h5 : ∀ (q : Fin 1023) (k : Fin 8), x5 (ix2 q.castSucc k) = W1 (ix2 q k))
    (h6 : ∀ k : Fin 8, x6 (ix2 (0 : Fin 1) k) = b1 (ix1 k))
    (h7 : ∀ k k' : Fin 8, x7 (ix2 k k') = W2 (ix2 k k'))
    (h8 : ∀ k : Fin 8, x8 (ix2 (0 : Fin 1) k) = b2 (ix1 k))
    (h9 : ∀ (k : Fin 8) (j' : Fin 3), x9 (ix2 k j') = W3 (ix2 k j'))
    (h10 : ∀ j' : Fin 3, x10 (ix2 (0 : Fin 1) j') = b3 (ix1 j')) :
    stored x0 x1 x2 x3 x4 x5 x6 x7 x8 x9 x10 p j
      = Cert.Haar.rowNet (fun k => Ideal.ofBits .f32 (Cert.ReferenceIdeal.lit0 k))
          (fun k => Ideal.ofBits .f32 (Cert.ReferenceIdeal.lit1 k)) (fun k => Ideal.ofBits .f32 (Cert.ReferenceIdeal.lit2 k))
          (fun k => Ideal.ofBits .f32 (Cert.ReferenceIdeal.lit3 k)) W1 b1 W2 b2 W3 b3 x j := by
  have hfeat : ∀ q : Fin 1023, feat x0 x1 x2 x3 x4 p q.castSucc
      = Cert.Haar.cell x (Ideal.ofBits .f32 (Cert.ReferenceIdeal.lit0 q)) (Ideal.ofBits .f32 (Cert.ReferenceIdeal.lit1 q))
          (Ideal.ofBits .f32 (Cert.ReferenceIdeal.lit2 q)) (Ideal.ofBits .f32 (Cert.ReferenceIdeal.lit3 q)) := by
    intro q
    unfold feat
    rw [h0, h1, h2, h3, h4, Cert.Haar.Tables.left_lo, Cert.Haar.Tables.left_hi, Cert.Haar.Tables.right_lo,
      Cert.Haar.Tables.right_hi]
  have hlast : feat x0 x1 x2 x3 x4 p (Fin.last 1023) = 0 := by
    unfold feat
    rw [h1, h2, h3, h4, Cert.Haar.Tables.pad_left, Cert.Haar.Tables.pad_right]
    exact Cert.Haar.cell_empty _ _ _
  have hh1 : ∀ k : Fin 8, hid1 x0 x1 x2 x3 x4 x5 x6 p k
      = Cert.Haar.hidden1 (fun k => Ideal.ofBits .f32 (Cert.ReferenceIdeal.lit0 k))
          (fun k => Ideal.ofBits .f32 (Cert.ReferenceIdeal.lit1 k)) (fun k => Ideal.ofBits .f32 (Cert.ReferenceIdeal.lit2 k))
          (fun k => Ideal.ofBits .f32 (Cert.ReferenceIdeal.lit3 k)) W1 b1 x k := by
    intro k
    have hs : (∑ q : Fin 1024, feat x0 x1 x2 x3 x4 p q * x5 (ix2 q k))
        = ∑ q : Fin 1023, Cert.Haar.cell x (Ideal.ofBits .f32 (Cert.ReferenceIdeal.lit0 q))
            (Ideal.ofBits .f32 (Cert.ReferenceIdeal.lit1 q)) (Ideal.ofBits .f32 (Cert.ReferenceIdeal.lit2 q))
            (Ideal.ofBits .f32 (Cert.ReferenceIdeal.lit3 q)) * W1 (ix2 q k) := by
      refine (Cert.Haar.sum_drop_last (fun q => feat x0 x1 x2 x3 x4 p q * x5 (ix2 q k)) ?_).trans
        (Finset.sum_congr rfl fun q _ => ?_)
      · show feat x0 x1 x2 x3 x4 p (Fin.last 1023) * _ = 0
        rw [hlast, zero_mul]
      · show feat x0 x1 x2 x3 x4 p q.castSucc * x5 (ix2 q.castSucc k) = _
        rw [hfeat, h5]
    unfold hid1 Cert.Haar.hidden1
    rw [hs, h6]
  have hh2 : ∀ k : Fin 8, hid2 x0 x1 x2 x3 x4 x5 x6 x7 x8 p k
      = Cert.Haar.hidden2 W2 b2 (Cert.Haar.hidden1 (fun k => Ideal.ofBits .f32 (Cert.ReferenceIdeal.lit0 k))
          (fun k => Ideal.ofBits .f32 (Cert.ReferenceIdeal.lit1 k)) (fun k => Ideal.ofBits .f32 (Cert.ReferenceIdeal.lit2 k))
          (fun k => Ideal.ofBits .f32 (Cert.ReferenceIdeal.lit3 k)) W1 b1 x) k := by
    intro k
    unfold hid2 Cert.Haar.hidden2
    rw [h8]
    simp only [hh1, h7]
  unfold stored Cert.Haar.rowNet Cert.Haar.outRow
  rw [h10]
  simp only [hh2, h9]

end Cert.Haar.Ker

end
-- ==== Proof.KerBlocks.lean ====
/-
  From blocks to the array: what the launch leaves in the result array.

  The grid has 64 points. At point t the sample window holds rows t * 2048 .. t * 2048 + 2047 of the sample column, every
  other input window holds its whole array, and the output window writes back rows t * 2048 .. t * 2048 + 2047 of the
  [131072, 3] result. So the block written at point t is the restriction of ONE function of the arguments, the network
  of the sample in each row; the 64 blocks tile the array (row n lies in block n / 2048), and the array ends holding
  that function.
-/
import proofs.«156427_j66657892434287_1_alg».proof.Proof.KerInputs
import proofs.«156427_j66657892434287_1_alg».proof.Proof.KerRow

noncomputable section

namespace Cert.Haar.Ker

open Cert.KernelIdeal Cert.KernelIdeal.Gen Idealize.ShloMosaic Idealize.ShloMosaic.TcCoe Idealize.SL.Sem
open Idealize.ShloMosaic.ValueIdx
open Idealize.ShloMosaic.Pipeline (Dat)

/-! ## The function the result array ends holding -/

/-- The network of one sample with the reference's end-point tables. -/
def rowOut (a1 : S1023x8.Idx → EReal) (a2 : S8.Idx → EReal) (a3 : S8x8.Idx → EReal) (a4 : S8.Idx → EReal)
    (a5 : S8x3.Idx → EReal) (a6 : S3.Idx → EReal) (x : EReal) (j : Fin 3) : EReal :=
  Cert.Haar.rowNet (fun k => Ideal.ofBits .f32 (Cert.ReferenceIdeal.lit0 k)) (fun k => Ideal.ofBits .f32 (Cert.ReferenceIdeal.lit1 k))
    (fun k => Ideal.ofBits .f32 (Cert.ReferenceIdeal.lit2 k)) (fun k => Ideal.ofBits .f32 (Cert.ReferenceIdeal.lit3 k))
    a1 a2 a3 a4 a5 a6 x j

/-- The flat result at row n, column j: the network of sample (n / 8192, n % 8192). -/
def flatAt (a0 : S16x8192.Idx → EReal) (a1 : S1023x8.Idx → EReal) (a2 : S8.Idx → EReal) (a3 : S8x8.Idx → EReal)
    (a4 : S8.Idx → EReal) (a5 : S8x3.Idx → EReal) (a6 : S3.Idx → EReal) (n : Fin 131072) (j : Fin 3) : EReal :=
  rowOut a1 a2 a3 a4 a5 a6
    (a0 (ix2 (⟨n.val / 8192, by have := n.isLt; omega⟩ : Fin 16) (⟨n.val % 8192, by omega⟩ : Fin 8192))) j

/-- The flat result as an array. -/
def flat (a0 : S16x8192.Idx → EReal) (a1 : S1023x8.Idx → EReal) (a2 : S8.Idx → EReal) (a3 : S8x8.Idx → EReal)
    (a4 : S8.Idx → EReal) (a5 : S8x3.Idx → EReal) (a6 : S3.Idx → EReal) : S131072x3.Idx → EReal :=
  fun i => flatAt a0 a1 a2 a3 a4 a5 a6 ⟨(i 0).val, idx2_lt0 i⟩ ⟨(i 1).val, idx2_lt1 i⟩

/-! ## One block, over variables -/

/-- The body's stored value over blocks that hold what the launch stages at the point whose sample rows start at
    tt * 2048: entry y is the flat result at row tt * 2048 + y 0. -/
theorem block_eq (x0 : FVec Ideal S2048x1 .f32) (x1 x2 x3 x4 : FVec Ideal S1x1024 .f32) (x5 : FVec Ideal S1024x8 .f32)
    (x6 : FVec Ideal S1x8 .f32) (x7 : FVec Ideal S8x8 .f32) (x8 : FVec Ideal S1x8 .f32) (x9 : FVec Ideal S8x3 .f32)
    (x10 : FVec Ideal S1x3 .f32) (tt : ℕ) (htt : tt < 64)
    (a0 : S16x8192.Idx → EReal) (a1 : S1023x8.Idx → EReal) (a2 : S8.Idx → EReal) (a3 : S8x8.Idx → EReal)
    (a4 : S8.Idx → EReal) (a5 : S8x3.Idx → EReal) (a6 : S3.Idx → EReal) (v : S_.Idx → EReal)
    (h0 : ∀ p : Fin 2048, x0 (ix2 p (0 : Fin 1))
      = shapeCast S131072x1 a0 shapeCasts_S16x8192_S131072x1 (ix2 (⟨tt * 2048 + p.val, by have := p.isLt; omega⟩ : Fin 131072) (0 : Fin 1)))
    (h1 : x1 = broadcastInDim S1x1024 ![1] bcast_S1024_S1x1024_1 (fun i => FloatOps.ofBits (F := Ideal) .f32 (lit0 (S1024.rowMajor i))))
    (h2 : x2 = broadcastInDim S1x1024 ![1] bcast_S1024_S1x1024_1 (fun i => FloatOps.ofBits (F := Ideal) .f32 (lit1 (S1024.rowMajor i))))
    (h3 : x3 = broadcastInDim S1x1024 ![1] bcast_S1024_S1x1024_1 (fun i => FloatOps.ofBits (F := Ideal) .f32 (lit2 (S1024.rowMajor i))))
    (h4 : x4 = broadcastInDim S1x1024 ![1] bcast_S1024_S1x1024_1 (fun i => FloatOps.ofBits (F := Ideal) .f32 (lit3 (S1024.rowMajor i))))
    (h5 : x5 = pad S1024x8 ![0, 0] ![1, 0] ![0, 0] a1 v pads_S1023x8_S1024x8_010_000 h_S_)
    (h6 : x6 = shapeCast S1x8 a2 shapeCasts_S8_S1x8) (h7 : x7 = a3) (h8 : x8 = shapeCast S1x8 a4 shapeCasts_S8_S1x8)
    (h9 : x9 = a5) (h10 : x10 = shapeCast S1x3 a6 shapeCasts_S3_S1x3) (y : S2048x3.Idx) :
    k0_pay1 (F := Ideal) (k0_pay2 (F := Ideal) x0 x1 x2 x3 x4 x5 x6 x7) x8 x9 x10 y
      = flatAt a0 a1 a2 a3 a4 a5 a6 ⟨tt * 2048 + (y 0).val, by have := idx2_lt0 y; omega⟩ ⟨(y 1).val, idx2_lt1 y⟩ := by
  obtain ⟨p, j, rfl⟩ : ∃ (p : Fin 2048) (j : Fin 3), y = ix2 p j := ⟨y 0, y 1, eq_ix2 y⟩
  rw [pay_apply]
  unfold flatAt rowOut
  refine stored_eq x0 x1 x2 x3 x4 x5 x6 x7 x8 x9 x10 p j _ a1 a2 a3 a4 a5 a6 ?_ ?_ ?_ ?_ ?_ ?_ ?_ ?_ ?_ ?_ ?_
  · rw [h0 p]
    exact column_apply a0 _ _ _ (by show tt * 2048 + p.val = (tt * 2048 + p.val) / 8192 * 8192 + (tt * 2048 + p.val) % 8192; omega)
  · intro q; rw [h1]; exact tableRow_apply lit0 q
  · intro q; rw [h2]; exact tableRow_apply lit1 q
  · intro q; rw [h3]; exact tableRow_apply lit2 q
  · intro q; rw [h4]; exact tableRow_apply lit3 q
  · intro q k; rw [h5]; exact padded_apply a1 v q k
  · intro k; rw [h6]; exact shapeCast_a_1a_apply a2 shapeCasts_S8_S1x8 (0 : Fin 1) k
  · intro k k'; rw [h7]
  · intro k; rw [h8]; exact shapeCast_a_1a_apply a4 shapeCasts_S8_S1x8 (0 : Fin 1) k
  · intro k j'; rw [h9]
  · intro j'; rw [h10]; exact shapeCast_a_1a_apply a6 shapeCasts_S3_S1x3 (0 : Fin 1) j'

variable (m : (ℓ : Loc nD τ sig) → Buf (Elt Ideal) ℓ)

/-! ## The blocks the windows hold -/

/-- The sample window moves with the output window along the rows, and the output window's block index is the point. -/
theorem idx_rows : ∀ t : Fin cfg0.N, win0_0.index t (0 : Fin 2) = t.val ∧ win0_0.index t (1 : Fin 2) = 0
    ∧ win0_11.index t (0 : Fin 2) = t.val ∧ win0_11.index t (1 : Fin 2) = 0 :=
  (by decide +kernel : ∀ t : Fin grid0.N, _)

/-- Every other input window's block index is zero on both axes at every grid point. -/
theorem idx_whole : ∀ t : Fin cfg0.N,
    (win0_1.index t (0 : Fin 2) = 0 ∧ win0_1.index t (1 : Fin 2) = 0) ∧ (win0_2.index t (0 : Fin 2) = 0 ∧ win0_2.index t (1 : Fin 2) = 0)
    ∧ (win0_3.index t (0 : Fin 2) = 0 ∧ win0_3.index t (1 : Fin 2) = 0) ∧ (win0_4.index t (0 : Fin 2) = 0 ∧ win0_4.index t (1 : Fin 2) = 0)
    ∧ (win0_5.index t (0 : Fin 2) = 0 ∧ win0_5.index t (1 : Fin 2) = 0) ∧ (win0_6.index t (0 : Fin 2) = 0 ∧ win0_6.index t (1 : Fin 2) = 0)
    ∧ (win0_7.index t (0 : Fin 2) = 0 ∧ win0_7.index t (1 : Fin 2) = 0) ∧ (win0_8.index t (0 : Fin 2) = 0 ∧ win0_8.index t (1 : Fin 2) = 0)
    ∧ (win0_9.index t (0 : Fin 2) = 0 ∧ win0_9.index t (1 : Fin 2) = 0) ∧ (win0_10.index t (0 : Fin 2) = 0 ∧ win0_10.index t (1 : Fin 2) = 0) :=
  (by decide +kernel : ∀ t : Fin grid0.N, _)

/-- A window whose block index is zero on both axes and whose block has the array's extents reads its whole array:
    an element of the block sits in the array at block index times block size plus its own coordinate, which is its
    own coordinate. The tactic takes the window, the two extents and the two index facts. -/
local macro "whole_array" w:term "," n0:term "," n1:term "," h:term : tactic => `(tactic| (
  funext y
  refine congrArg _ (funext fun a => Fin.ext ?_)
  match a with
  | ⟨0, _⟩ => show Pipeline.Window.index $w _ (0 : Fin 2) * $n0 + 1 * (y 0).val = (y 0).val; rw [($h).1]; omega
  | ⟨1, _⟩ => show Pipeline.Window.index $w _ (1 : Fin 2) * $n1 + 1 * (y 1).val = (y 1).val; rw [($h).2]; omega))

theorem block1 (c : Dev nD) (t : Fin cfg0.N) : (iblk m c 1 t : S1x1024.Idx → EReal) = V m c main_v0 := by
  show (fun y => V m c main_v0 (((cfg0.win 1).blk t).view.emb y)) = V m c main_v0
  whole_array win0_1, 1, 1024, (idx_whole t).1
theorem block2 (c : Dev nD) (t : Fin cfg0.N) : (iblk m c 2 t : S1x1024.Idx → EReal) = V m c main_v1 := by
  show (fun y => V m c main_v1 (((cfg0.win 2).blk t).view.emb y)) = V m c main_v1
  whole_array win0_2, 1, 1024, (idx_whole t).2.1
theorem block3 (c : Dev nD) (t : Fin cfg0.N) : (iblk m c 3 t : S1x1024.Idx → EReal) = V m c main_v2 := by
  show (fun y => V m c main_v2 (((cfg0.win 3).blk t).view.emb y)) = V m c main_v2
  whole_array win0_3, 1, 1024, (idx_whole t).2.2.1
theorem block4 (c : Dev nD) (t : Fin cfg0.N) : (iblk m c 4 t : S1x1024.Idx → EReal) = V m c main_v3 := by
  show (fun y => V m c main_v3 (((cfg0.win 4).blk t).view.emb y)) = V m c main_v3
  whole_array win0_4, 1, 1024, (idx_whole t).2.2.2.1
theorem block5 (c : Dev nD) (t : Fin cfg0.N) : (iblk m c 5 t : S1024x8.Idx → EReal) = V m c main_v5 := by
  show (fun y => V m c main_v5 (((cfg0.win 5).blk t).view.emb y)) = V m c main_v5
  whole_array win0_5, 1024, 8, (idx_whole t).2.2.2.2.1
theorem block6 (c : Dev nD) (t : Fin cfg0.N) : (iblk m c 6 t : S1x8.Idx → EReal) = V m c main_v6 := by
  show (fun y => V m c main_v6 (((cfg0.win 6).blk t).view.emb y)) = V m c main_v6
  whole_array win0_6, 1, 8, (idx_whole t).2.2.2.2.2.1
theorem block7 (c : Dev nD) (t : Fin cfg0.N) : (iblk m c 7 t : S8x8.Idx → EReal) = V m c main_arg3 := by
  show (fun y => V m c main_arg3 (((cfg0.win 7).blk t).view.emb y)) = V m c main_arg3
  whole_array win0_7, 8, 8, (idx_whole t).2.2.2.2.2.2.1
theorem block8 (c : Dev nD) (t : Fin cfg0.N) : (iblk m c 8 t : S1x8.Idx → EReal) = V m c main_v7 := by
  show (fun y => V m c main_v7 (((cfg0.win 8).blk t).view.emb y)) = V m c main_v7
  whole_array win0_8, 1, 8, (idx_whole t).2.2.2.2.2.2.2.1
theorem block9 (c : Dev nD) (t : Fin cfg0.N) : (iblk m c 9 t : S8x3.Idx → EReal) = V m c main_arg5 := by
  show (fun y => V m c main_arg5 (((cfg0.win 9).blk t).view.emb y)) = V m c main_arg5
  whole_array win0_9, 8, 3, (idx_whole t).2.2.2.2.2.2.2.2.1
theorem block10 (c : Dev nD) (t : Fin cfg0.N) : (iblk m c 10 t : S1x3.Idx → EReal) = V m c main_v8 := by
  show (fun y => V m c main_v8 (((cfg0.win 10).blk t).view.emb y)) = V m c main_v8
  whole_array win0_10, 1, 3, (idx_whole t).2.2.2.2.2.2.2.2.2

/-- Row p of the sample window's block at point t is row t * 2048 + p of the sample column. -/
theorem block0 (c : Dev nD) (t : Fin cfg0.N) (p : Fin 2048) :
    (iblk m c 0 t : S2048x1.Idx → EReal) (ix2 p (0 : Fin 1))
      = shapeCast S131072x1 (m ((c : Thread nD τ).loc main_arg0)) shapeCasts_S16x8192_S131072x1
          (ix2 (⟨t.val * 2048 + p.val, by have := p.isLt; have := t.isLt; have hN : cfg0.N = 64 := N_0; omega⟩ : Fin 131072) (0 : Fin 1)) := by
  show V m c main_v4 (((cfg0.win 0).blk t).view.emb (ix2 p (0 : Fin 1))) = _
  rw [V_v4]
  obtain ⟨e0, e1, -, -⟩ := idx_rows t
  refine congrArg _ (funext fun a => Fin.ext ?_)
  match a with
  | ⟨0, _⟩ => show win0_0.index t (0 : Fin 2) * 2048 + 1 * p.val = t.val * 2048 + p.val; rw [e0]; omega
  | ⟨1, _⟩ => show win0_0.index t (1 : Fin 2) * 1 + 1 * 0 = 0; rw [e1]

end Cert.Haar.Ker

end
-- ==== Proof.KerFinal.lean ====
/-
  The kernel's program read as a value: its result buffer after the run.

  Each grid point writes back the block of one function of the arguments (the network of the sample in each row), the 64
  blocks tile the [131072, 3] array, so the array ends holding that function; the one host operation after the launch
  reshapes it to [16, 8192, 3], where entry (b, s, j) is row b * 8192 + s, column j.
-/
import proofs.«156427_j66657892434287_1_alg».proof.Proof.KerBlocks

noncomputable section

namespace Cert.Haar.Ker

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- WHAT POINT t WRITES BACK is block t of the flat result of the arguments. -/
theorem flushed_eq (c : Dev nD) (t : Fin cfg0.N) :
    (dats m 0 c).flushed 11 t = ((cfg0.win 11).blk t).view.read (Elt Ideal) (flat (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  show (cfg0.win 11).cut (grid0.coords t) ((dats m 0 c).after 11 t) = _
  rw [after0_11]
  unfold out0_11
  rw [View.canon_unit_zero zero_offsets]
  simp only [View.ld_unit_zero (S := S2048x1) zero_offsets, View.ld_unit_zero (S := S1x1024) zero_offsets,
    View.ld_unit_zero (S := S1024x8) zero_offsets, View.ld_unit_zero (S := S1x8) zero_offsets,
    View.ld_unit_zero (S := S8x8) zero_offsets, View.ld_unit_zero (S := S8x3) zero_offsets,
    View.ld_unit_zero (S := S1x3) zero_offsets]
  have ht : t.val < 64 := by have := t.isLt; have hN : cfg0.N = 64 := N_0; omega
  obtain ⟨-, -, e0, e1⟩ := idx_rows t
  funext y
  refine (block_eq (iblk m c 0 t) (iblk m c 1 t) (iblk m c 2 t) (iblk m c 3 t) (iblk m c 4 t) (iblk m c 5 t) (iblk m c 6 t)
    (iblk m c 7 t) (iblk m c 8 t) (iblk m c 9 t) (iblk m c 10 t) t.val ht (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    (sitofp (F := Ideal) .f32 (constantI S_ 32 0#32))
    (block0 m c t) ((block1 m c t).trans (V_v0 m c)) ((block2 m c t).trans (V_v1 m c)) ((block3 m c t).trans (V_v2 m c))
    ((block4 m c t).trans (V_v3 m c)) ((block5 m c t).trans (V_v5 m c)) ((block6 m c t).trans (V_v6 m c))
    ((block7 m c t).trans (V_main_arg3 m c)) ((block8 m c t).trans (V_v7 m c)) ((block9 m c t).trans (V_main_arg5 m c))
    ((block10 m c t).trans (V_v8 m c)) y).trans ?_
  refine congrArg₂ (flatAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (Fin.ext ?_) (Fin.ext ?_)
  · show t.val * 2048 + (y 0).val = win0_11.index t (0 : Fin 2) * 2048 + 1 * (y 0).val
    rw [e0]; omega
  · show (y 1).val = win0_11.index t (1 : Fin 2) * 3 + 1 * (y 1).val
    rw [e1]; omega

/-- An index of the result array is in point t's block iff each coordinate is in the block's range on its axis. -/
theorem mem_blk (t : Fin cfg0.N) (i : S131072x3.Idx) :
    i ∈ ((cfg0.win 11).blk t).view.set ↔ ∀ a : Fin 2, win0_11.index t a * S2048x3.size a ≤ (i a).val
      ∧ (i a).val < win0_11.index t a * S2048x3.size a + S2048x3.size a := by
  show i ∈ ((View.whole main_v9).slice (win0_11.rect t)).set ↔ _
  rw [View.set_slice_whole, Rect.mem_set_unit]
  exact Iff.rfl

/-- Every row of the result array lies in some point's block: row n in the block of point n / 2048. -/
theorem cover (i : S131072x3.Idx) :
    ∃ t : Fin cfg0.N, (cfg0.win 11).flush t = true ∧ i ∈ ((cfg0.win 11).blk t).view.set := by
  have hi0 : (i 0).val < 131072 := idx2_lt0 i
  have hi1 : (i 1).val < 3 := idx2_lt1 i
  have hN : cfg0.N = 64 := N_0
  obtain ⟨t, ht⟩ : ∃ t : Fin cfg0.N, t.val = (i 0).val / 2048 := ⟨⟨(i 0).val / 2048, by omega⟩, rfl⟩
  obtain ⟨-, -, e0, e1⟩ := idx_rows t
  refine ⟨t, flush0_11 t, ?_⟩
  rw [mem_blk]
  intro a
  match a with
  | ⟨0, _⟩ =>
    show win0_11.index t (0 : Fin 2) * 2048 ≤ (i 0).val ∧ (i 0).val < win0_11.index t (0 : Fin 2) * 2048 + 2048
    rw [e0, ht]; omega
  | ⟨1, _⟩ =>
    show win0_11.index t (1 : Fin 2) * 3 ≤ (i 1).val ∧ (i 1).val < win0_11.index t (1 : Fin 2) * 3 + 3
    rw [e1]; omega

/-- THE RESULT ARRAY after the launch is the flat result of the arguments. -/
theorem final (c : Dev nD) : (dats m 0 c).arrAt 11 cfg0.N = flat (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats m 0 c).arrAt_eq_of_cover 11 (flat (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (fun t _ => flushed_eq m c t) cover

end Cert.Haar.Ker

end
-- ==== Proof.KerValue.lean ====
/-
  The kernel's program as a value: every weakly fair execution ends with the result buffer at the reshaped flat result
  of the arguments, and the arguments unchanged; and that result read at (b, s, j) is the network of the sample t (b, s).
-/
import proofs.«156427_j66657892434287_1_alg».proof.Proof.KerFinal

noncomputable section

namespace Cert.Haar.Ker

open Cert.KernelIdeal Cert.KernelIdeal.Gen Idealize.ShloMosaic Idealize.ShloMosaic.TcCoe Idealize.SL.Sem
open Idealize.ShloMosaic.ValueIdx
open Idealize.ShloMosaic.Pipeline (Dat)

/-- The program's result as a function of its arguments: the flat result reshaped to [16, 8192, 3]. -/
def out (a0 : S16x8192.Idx → EReal) (a1 : S1023x8.Idx → EReal) (a2 : S8.Idx → EReal) (a3 : S8x8.Idx → EReal)
    (a4 : S8.Idx → EReal) (a5 : S8x3.Idx → EReal) (a6 : S3.Idx → EReal) : S16x8192x3.Idx → EReal :=
  shapeCast S16x8192x3 (flat a0 a1 a2 a3 a4 a5 a6) shapeCasts_S131072x3_S16x8192x3

/-- The result at (b, s, j) is row b * 8192 + s, column j, of the flat result: the network of the sample t (b, s) with
    the reference's end-point tables. -/
theorem out_apply (a0 : S16x8192.Idx → EReal) (a1 : S1023x8.Idx → EReal) (a2 : S8.Idx → EReal) (a3 : S8x8.Idx → EReal)
    (a4 : S8.Idx → EReal) (a5 : S8x3.Idx → EReal) (a6 : S3.Idx → EReal) (b : Fin 16) (s : Fin 8192) (j : Fin 3) :
    out a0 a1 a2 a3 a4 a5 a6 (ix3 b s j)
      = Cert.Haar.netAt (fun k => Ideal.ofBits .f32 (Cert.ReferenceIdeal.lit0 k)) (fun k => Ideal.ofBits .f32 (Cert.ReferenceIdeal.lit1 k))
          (fun k => Ideal.ofBits .f32 (Cert.ReferenceIdeal.lit2 k)) (fun k => Ideal.ofBits .f32 (Cert.ReferenceIdeal.lit3 k))
          a0 a1 a2 a3 a4 a5 a6 b s j := by
  have hb := b.isLt
  have hs := s.isLt
  unfold out
  refine (shapeCast_apply _ shapeCasts_S131072x3_S16x8192x3 (ix3 b s j)
    (ix2 (⟨b.val * 8192 + s.val, by omega⟩ : Fin 131072) j) ?_).trans ?_
  · rw [Shape.rowMajor_val_two, Shape.rowMajor_val_three]
    rfl
  show flatAt a0 a1 a2 a3 a4 a5 a6 ⟨b.val * 8192 + s.val, _⟩ ⟨j.val, _⟩ = _
  unfold flatAt rowOut Cert.Haar.netAt
  have e0 : (⟨(b.val * 8192 + s.val) / 8192, by omega⟩ : Fin 16) = b := Fin.ext (by show (b.val * 8192 + s.val) / 8192 = b.val; omega)
  have e1 : (⟨(b.val * 8192 + s.val) % 8192, by omega⟩ : Fin 8192) = s := Fin.ext (by show (b.val * 8192 + s.val) % 8192 = s.val; omega)
  show Cert.Haar.rowNet _ _ _ _ a1 a2 a3 a4 a5 a6 (a0 (ix2 (⟨(b.val * 8192 + s.val) / 8192, _⟩ : Fin 16) (⟨(b.val * 8192 + s.val) % 8192, _⟩ : Fin 8192))) j = _
  rw [e0, e1]

variable (m : (ℓ : Loc nD τ sig) → Buf (Elt Ideal) ℓ) (ρ : Dev nD → PrngReg)

/-- The host operation after the launch reshapes the array the launch leaves. -/
theorem tail_eq (c : Dev nD) :
    Pipeline.afterTail₀ cfgs (dats m) 0 (V0 m) [hostOps1] c main_v10 = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have e : Pipeline.withArrays (cfgs 0).spec c (V0 m c) (fun w => (dats m 0 c).arrAt w (cfgs 0).N) (Proc.devRef .tc main_v9)
      = flat (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
    (Pipeline.withArrays_arr spec0 launch0.win.arr_inj c _ _ 11).trans (final m c)
  unfold Pipeline.afterTail₀
  show StableHlo.after hostOps1 _ (Proc.devRef .tc main_v10) = _
  after_results
  rw [e]
  rfl

/-- THE RUN: every weakly fair execution of the kernel's program terminates with the result buffer at out of the
    arguments as launched, and the arguments unchanged. -/
theorem run : θ_run defs (onTc (τ := τ) (main (F := Ideal))) ⟨m, fun _ => 0, ρ⟩ fun r => ∀ c : Dev nD,
      r.2.mem ((c.tc : Thread nD τ).loc main_v10) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c =>
    ⟨((h c).2 main_v10 (Pipeline.mem_restRefs_of main_v10 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 7).trans (((dats m 0 c).arrAt_in 7 rfl _).trans ((A_eq m c 7).trans (V_main_arg3 m c))),
      ((h c).2 main_arg4 (Pipeline.mem_restRefs_of main_arg4 (by decide) (by decide))).trans (W_main_arg4 m (dats m) c),
      ((h c).1 9).trans (((dats m 0 c).arrAt_in 9 rfl _).trans ((A_eq m c 9).trans (V_main_arg5 m c))),
      ((h c).2 main_arg6 (Pipeline.mem_restRefs_of main_arg6 (by decide) (by decide))).trans (W_main_arg6 m (dats m) c)⟩)
    (run_main m ρ)

end Cert.Haar.Ker

end
-- ==== Proof.RefRun.lean ====
/-
  The reference network as a straight line of host operations, and what its result buffer holds after the run.

  The reference flattens the samples t (16 × 8192) into one column of 131072 rows, compares that column, broadcast
  over 1023 columns, against four tables of interval ends (left half: lower end ≤ x < upper end; right half likewise),
  converts the two indicator bits to numbers and subtracts them: that is the 131072 × 1023 array of Haar features.
  Three affine layers follow (a matrix product plus a bias vector broadcast over the rows), the first two followed by
  the maximum with zero, and the 131072 × 3 result is reshaped to 16 × 8192 × 3.

  `ops` lists the 45 operations in the program's order (the two calls of the positive-part function written out at
  their call sites, three operations each); `out` is the composed pure term for the result, built from small named
  pieces; `run` says every weakly fair execution terminates with the result buffer at `out` of the arguments'
  launch contents and the arguments unchanged.
-/
import proofs.«156427_j66657892434287_1_alg».proof.Proof.Gen.ReferenceIdeal
import Idealize.ShloMosaic.Lib.StableHlo.Run

noncomputable section

namespace Cert.Haar.Ref

open Cert.ReferenceIdeal Cert.ReferenceIdeal.Gen Idealize.ShloMosaic Idealize.ShloMosaic.TcCoe Idealize.SL.Sem Idealize.ShloMosaic.StableHlo

variable {F : FTy → Type} [FloatOps F]

/-! ## The composed term, in named pieces -/

/-- The samples as one column: row n = b * 8192 + s holds t (b, s). -/
def col (t : FVec F S16x8192 .f32) : FVec F S131072x1 .f32 :=
  shapeCast S131072x1 t shapeCasts_S16x8192_S131072x1

/-- The column repeated over the 1023 feature columns: entry (n, k) is sample n. -/
def spread (t : FVec F S16x8192 .f32) : FVec F S131072x1023 .f32 :=
  broadcastInDim S131072x1023 ![0, 1] bcast_S131072x1_S131072x1023_0_1 (col t)

/-- A table of 1023 interval ends, as one row repeated over the 131072 rows: entry (n, k) is end k. -/
def edgeArr (lit : Fin 1023 → BitVec 32) : FVec F S131072x1023 .f32 :=
  broadcastInDim S131072x1023 ![0, 1] bcast_S1x1023_S131072x1023_0_1
    (broadcastInDim S1x1023 ![1] bcast_S1023_S1x1023_1 (fun i => FloatOps.ofBits .f32 (lit (S1023.rowMajor i))))

/-- The indicator bits of the half-open intervals [lo k, hi k) at sample n. -/
def half (t : FVec F S16x8192 .f32) (lo hi : Fin 1023 → BitVec 32) : IVec S131072x1023 1 :=
  andi (cmpf .oge (spread t) (edgeArr lo)) (cmpf .olt (spread t) (edgeArr hi))

/-- The Haar features: left-half indicator minus right-half indicator, as numbers. -/
def feat (t : FVec F S16x8192 .f32) : FVec F S131072x1023 .f32 :=
  subf (uitofp .f32 (half t lit0 lit1)) (uitofp .f32 (half t lit2 lit3))

/-- A bias vector of length 8 as one row, repeated over the rows. -/
def bias8 (b : FVec F S8 .f32) : FVec F S131072x8 .f32 :=
  broadcastInDim S131072x8 ![0, 1] bcast_S1x8_S131072x8_0_1 (broadcastInDim S1x8 ![1] bcast_S8_S1x8_1 b)

/-- A bias vector of length 3 as one row, repeated over the rows. -/
def bias3 (b : FVec F S3 .f32) : FVec F S131072x3 .f32 :=
  broadcastInDim S131072x3 ![0, 1] bcast_S1x3_S131072x3_0_1 (broadcastInDim S1x3 ![1] bcast_S3_S1x3_1 b)

/-- The maximum with the zero constant broadcast to every entry. -/
def relu8 (x : FVec F S131072x8 .f32) : FVec F S131072x8 .f32 :=
  maximumf x (broadcastInDim S131072x8 ![] bcast_S_S131072x8 (constant S_ .f32 0x00000000#32))

/-- The first hidden layer: features times W1 plus b1, positive part. -/
def layer1 (t : FVec F S16x8192 .f32) (W1 : FVec F S1023x8 .f32) (b1 : FVec F S8 .f32) : FVec F S131072x8 .f32 :=
  relu8 (addf (Host.dotGeneral dot_S131072x1023_S1023x8_S131072x8_1_0_0_1_n_n none (feat t) W1) (bias8 b1))

/-- The second hidden layer: h times W2 plus b2, positive part. -/
def layer2 (h : FVec F S131072x8 .f32) (W2 : FVec F S8x8 .f32) (b2 : FVec F S8 .f32) : FVec F S131072x8 .f32 :=
  relu8 (addf (Host.dotGeneral dot_S131072x8_S8x8_S131072x8_1_0_0_1_n_n none h W2) (bias8 b2))

/-- The output layer: h times W3 plus b3. -/
def layer3 (h : FVec F S131072x8 .f32) (W3 : FVec F S8x3 .f32) (b3 : FVec F S3 .f32) : FVec F S131072x3 .f32 :=
  addf (Host.dotGeneral dot_S131072x8_S8x3_S131072x3_1_0_0_1_n_n none h W3) (bias3 b3)

/-- The result array: the three layers over the features, reshaped to 16 × 8192 × 3. -/
def out (t : FVec F S16x8192 .f32) (W1 : FVec F S1023x8 .f32) (b1 : FVec F S8 .f32) (W2 : FVec F S8x8 .f32)
    (b2 : FVec F S8 .f32) (W3 : FVec F S8x3 .f32) (b3 : FVec F S3 .f32) : FVec F S16x8192x3 .f32 :=
  shapeCast S16x8192x3 (layer3 (layer2 (layer1 t W1 b1) W2 b2) W3 b3) shapeCasts_S131072x3_S16x8192x3

/-! ## The operations and the run -/

/-- @main's 45 operations, in order; each call of the positive-part function is its three operations over that call's
    buffers. -/
abbrev ops : List (HloOp τ sig (Elt F)) :=
  [ nullary main_cst (fun i => FloatOps.ofBits .f32 (lit0 (S1023.rowMajor i))),
    nullary main_cst_0 (fun i => FloatOps.ofBits .f32 (lit1 (S1023.rowMajor i))),
    nullary main_cst_1 (fun i => FloatOps.ofBits .f32 (lit2 (S1023.rowMajor i))),
    nullary main_cst_2 (fun i => FloatOps.ofBits .f32 (lit3 (S1023.rowMajor i))),
    reshape main_arg0 main_v0 rfl shapeCasts_S16x8192_S131072x1,
    unary main_cst main_v1 (broadcastInDim S1x1023 ![1] bcast_S1023_S1x1023_1 : (⟨S1023, .f32⟩ : BufTy).Contents (Elt F) → (⟨S1x1023, .f32⟩ : BufTy).Contents (Elt F)),
    unary main_v0 main_v2 (broadcastInDim S131072x1023 ![0, 1] bcast_S131072x1_S131072x1023_0_1 : (⟨S131072x1, .f32⟩ : BufTy).Contents (Elt F) → (⟨S131072x1023, .f32⟩ : BufTy).Contents (Elt F)),
    unary main_v1 main_v3 (broadcastInDim S131072x1023 ![0, 1] bcast_S1x1023_S131072x1023_0_1 : (⟨S1x1023, .f32⟩ : BufTy).Contents (Elt F) → (⟨S131072x1023, .f32⟩ : BufTy).Contents (Elt F)),
    binary main_v2 main_v3 main_v4 (cmpf .oge : (⟨S131072x1023, .f32⟩ : BufTy).Contents (Elt F) → (⟨S131072x1023, .f32⟩ : BufTy).Contents (Elt F) → (⟨S131072x1023, .i1⟩ : BufTy).Contents (Elt F)),
    unary main_cst_0 main_v5 (broadcastInDim S1x1023 ![1] bcast_S1023_S1x1023_1 : (⟨S1023, .f32⟩ : BufTy).Contents (Elt F) → (⟨S1x1023, .f32⟩ : BufTy).Contents (Elt F)),
    unary main_v0 main_v6 (broadcastInDim S131072x1023 ![0, 1] bcast_S131072x1_S131072x1023_0_1 : (⟨S131072x1, .f32⟩ : BufTy).Contents (Elt F) → (⟨S131072x1023, .f32⟩ : BufTy).Contents (Elt F)),
    unary main_v5 main_v7 (broadcastInDim S131072x1023 ![0, 1] bcast_S1x1023_S131072x1023_0_1 : (⟨S1x1023, .f32⟩ : BufTy).Contents (Elt F) → (⟨S131072x1023, .f32⟩ : BufTy).Contents (Elt F)),
    binary main_v6 main_v7 main_v8 (cmpf .olt : (⟨S131072x1023, .f32⟩ : BufTy).Contents (Elt F) → (⟨S131072x1023, .f32⟩ : BufTy).Contents (Elt F) → (⟨S131072x1023, .i1⟩ : BufTy).Contents (Elt F)),
    binary main_v4 main_v8 main_v9 (andi : (⟨S131072x1023, .i1⟩ : BufTy).Contents (Elt F) → (⟨S131072x1023, .i1⟩ : BufTy).Contents (Elt F) → (⟨S131072x1023, .i1⟩ : BufTy).Contents (Elt F)),
    unary main_cst_1 main_v10 (broadcastInDim S1x1023 ![1] bcast_S1023_S1x1023_1 : (⟨S1023, .f32⟩ : BufTy).Contents (Elt F) → (⟨S1x1023, .f32⟩ : BufTy).Contents (Elt F)),
    unary main_v0 main_v11 (broadcastInDim S131072x1023 ![0, 1] bcast_S131072x1_S131072x1023_0_1 : (⟨S131072x1, .f32⟩ : BufTy).Contents (Elt F) → (⟨S131072x1023, .f32⟩ : BufTy).Contents (Elt F)),
    unary main_v10 main_v12 (broadcastInDim S131072x1023 ![0, 1] bcast_S1x1023_S131072x1023_0_1 : (⟨S1x1023, .f32⟩ : BufTy).Contents (Elt F) → (⟨S131072x1023, .f32⟩ : BufTy).Contents (Elt F)),
    binary main_v11 main_v12 main_v13 (cmpf .oge : (⟨S131072x1023, .f32⟩ : BufTy).Contents (Elt F) → (⟨S131072x1023, .f32⟩ : BufTy).Contents (Elt F) → (⟨S131072x1023, .i1⟩ : BufTy).Contents (Elt F)),
    unary main_cst_2 main_v14 (broadcastInDim S1x1023 ![1] bcast_S1023_S1x1023_1 : (⟨S1023, .f32⟩ : BufTy).Contents (Elt F) → (⟨S1x1023, .f32⟩ : BufTy).Contents (Elt F)),
    unary main_v0 main_v15 (broadcastInDim S131072x1023 ![0, 1] bcast_S131072x1_S131072x1023_0_1 : (⟨S131072x1, .f32⟩ : BufTy).Contents (Elt F) → (⟨S131072x1023, .f32⟩ : BufTy).Contents (Elt F)),
    unary main_v14 main_v16 (broadcastInDim S131072x1023 ![0, 1] bcast_S1x1023_S131072x1023_0_1 : (⟨S1x1023, .f32⟩ : BufTy).Contents (Elt F) → (⟨S131072x1023, .f32⟩ : BufTy).Contents (Elt F)),
    binary main_v15 main_v16 main_v17 (cmpf .olt : (⟨S131072x1023, .f32⟩ : BufTy).Contents (Elt F) → (⟨S131072x1023, .f32⟩ : BufTy).Contents (Elt F) → (⟨S131072x1023, .i1⟩ : BufTy).Contents (Elt F)),
    binary main_v13 main_v17 main_v18 (andi : (⟨S131072x1023, .i1⟩ : BufTy).Contents (Elt F) → (⟨S131072x1023, .i1⟩ : BufTy).Contents (Elt F) → (⟨S131072x1023, .i1⟩ : BufTy).Contents (Elt F)),
    unary main_v9 main_v19 (uitofp .f32 : (⟨S131072x1023, .i1⟩ : BufTy).Contents (Elt F) → (⟨S131072x1023, .f32⟩ : BufTy).Contents (Elt F)),
    unary main_v18 main_v20 (uitofp .f32 : (⟨S131072x1023, .i1⟩ : BufTy).Contents (Elt F) → (⟨S131072x1023, .f32⟩ : BufTy).Contents (Elt F)),
    binary main_v19 main_v20 main_v21 (subf : (⟨S131072x1023, .f32⟩ : BufTy).Contents (Elt F) → (⟨S131072x1023, .f32⟩ : BufTy).Contents (Elt F) → (⟨S131072x1023, .f32⟩ : BufTy).Contents (Elt F)),
    binary main_v21 main_arg1 main_v22 ((fun l r => Host.dotGeneral dot_S131072x1023_S1023x8_S131072x8_1_0_0_1_n_n none l r) : (⟨S131072x1023, .f32⟩ : BufTy).Contents (Elt F) → (⟨S1023x8, .f32⟩ : BufTy).Contents (Elt F) → (⟨S131072x8, .f32⟩ : BufTy).Contents (Elt F)),
    unary main_arg2 main_v23 (broadcastInDim S1x8 ![1] bcast_S8_S1x8_1 : (⟨S8, .f32⟩ : BufTy).Contents (Elt F) → (⟨S1x8, .f32⟩ : BufTy).Contents (Elt F)),
    unary main_v23 main_v24 (broadcastInDim S131072x8 ![0, 1] bcast_S1x8_S131072x8_0_1 : (⟨S1x8, .f32⟩ : BufTy).Contents (Elt F) → (⟨S131072x8, .f32⟩ : BufTy).Contents (Elt F)),
    binary main_v22 main_v24 main_v25 (addf : (⟨S131072x8, .f32⟩ : BufTy).Contents (Elt F) → (⟨S131072x8, .f32⟩ : BufTy).Contents (Elt F) → (⟨S131072x8, .f32⟩ : BufTy).Contents (Elt F)),
    TRef.nullary main_call0.cst (constant S_ .f32 0x00000000#32),
    TRef.unary main_call0.cst main_call0.v0 (broadcastInDim S131072x8 ![] bcast_S_S131072x8),
    TRef.binary (.of main_v25) main_call0.v0 main_call0.v1 maximumf,
    binary main_v26 main_arg3 main_v27 ((fun l r => Host.dotGeneral dot_S131072x8_S8x8_S131072x8_1_0_0_1_n_n none l r) : (⟨S131072x8, .f32⟩ : BufTy).Contents (Elt F) → (⟨S8x8, .f32⟩ : BufTy).Contents (Elt F) → (⟨S131072x8, .f32⟩ : BufTy).Contents (Elt F)),
    unary main_arg4 main_v28 (broadcastInDim S1x8 ![1] bcast_S8_S1x8_1 : (⟨S8, .f32⟩ : BufTy).Contents (Elt F) → (⟨S1x8, .f32⟩ : BufTy).Contents (Elt F)),
    unary main_v28 main_v29 (broadcastInDim S131072x8 ![0, 1] bcast_S1x8_S131072x8_0_1 : (⟨S1x8, .f32⟩ : BufTy).Contents (Elt F) → (⟨S131072x8, .f32⟩ : BufTy).Contents (Elt F)),
    binary main_v27 main_v29 main_v30 (addf : (⟨S131072x8, .f32⟩ : BufTy).Contents (Elt F) → (⟨S131072x8, .f32⟩ : BufTy).Contents (Elt F) → (⟨S131072x8, .f32⟩ : BufTy).Contents (Elt F)),
    TRef.nullary main_call1.cst (constant S_ .f32 0x00000000#32),
    TRef.unary main_call1.cst main_call1.v0 (broadcastInDim S131072x8 ![] bcast_S_S131072x8),
    TRef.binary (.of main_v30) main_call1.v0 main_call1.v1 maximumf,
    binary main_v31 main_arg5 main_v32 ((fun l r => Host.dotGeneral dot_S131072x8_S8x3_S131072x3_1_0_0_1_n_n none l r) : (⟨S131072x8, .f32⟩ : BufTy).Contents (Elt F) → (⟨S8x3, .f32⟩ : BufTy).Contents (Elt F) → (⟨S131072x3, .f32⟩ : BufTy).Contents (Elt F)),
    unary main_arg6 main_v33 (broadcastInDim S1x3 ![1] bcast_S3_S1x3_1 : (⟨S3, .f32⟩ : BufTy).Contents (Elt F) → (⟨S1x3, .f32⟩ : BufTy).Contents (Elt F)),
    unary main_v33 main_v34 (broadcastInDim S131072x3 ![0, 1] bcast_S1x3_S131072x3_0_1 : (⟨S1x3, .f32⟩ : BufTy).Contents (Elt F) → (⟨S131072x3, .f32⟩ : BufTy).Contents (Elt F)),
    binary main_v32 main_v34 main_v35 (addf : (⟨S131072x3, .f32⟩ : BufTy).Contents (Elt F) → (⟨S131072x3, .f32⟩ : BufTy).Contents (Elt F) → (⟨S131072x3, .f32⟩ : BufTy).Contents (Elt F)),
    reshape main_v35 main_v36 rfl shapeCasts_S131072x3_S16x8192x3 ]

-- forty-five binds re-associated: the rewrite under the chain recurses once per statement
set_option maxRecDepth 2048 in
/-- @main is that straight line: the positive-part function's definition unfolded at its two calls, both sides are one
    chain of steps once sequencing is reassociated. -/
theorem main_eq (c : Dev nD) : main (F := F) c = seq ops := by
  simp only [main, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., nullary_bufs_sub .., nullary_bufs_sub .., reshape_bufs_sub .., unary_bufs_sub .., unary_bufs_sub .., unary_bufs_sub .., binary_bufs_sub .., unary_bufs_sub .., unary_bufs_sub .., unary_bufs_sub .., binary_bufs_sub .., binary_bufs_sub .., unary_bufs_sub .., unary_bufs_sub .., unary_bufs_sub .., binary_bufs_sub .., unary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., reshape_bufs_sub ..⟩

/-- On every device, for any float values, from any memory with zero counters: every weakly fair execution of @main
    terminates with the result buffer at `out` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v36) = out (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v36).trans (by after_results_simp; rfl),
      (h c main_arg0).trans (by after_results_simp),
      (h c main_arg1).trans (by after_results_simp),
      (h c main_arg2).trans (by after_results_simp),
      (h c main_arg3).trans (by after_results_simp),
      (h c main_arg4).trans (by after_results_simp),
      (h c main_arg5).trans (by after_results_simp),
      (h c main_arg6).trans (by after_results_simp)⟩)
    (run_seq scopedRefs_eq scopedSems_eq defs main (fun _ => ops) main_eq (fun _ => ops_sub) m ρ)

end Cert.Haar.Ref

end
-- ==== Proof.LibDotGeneralNN.lean ====
/-
  A host matrix product read at an entry, at the ideal instance.

  For a `dot_general` on the host whose dimension numbers are the plain ones — the left operand M×K contracted on its
  second axis, the right operand K×N contracted on its first, no batch axis — the entry at row `a` and column `b` is
  the textbook sum over `k : Fin K` of `lhs (a, k) · rhs (k, b)` on the extended reals, whatever the precision and the
  schedule key: the same sum a matrix product into the zero accumulator has. Stated for any dimension-number record
  with those lists.
-/
import proofs.«156427_j66657892434287_1_alg».proof.Proof.LibMatmulNN

noncomputable section

open scoped BigOperators

namespace Cert.LibDotGeneralNN

open Idealize.ShloMosaic Idealize.ShloMosaic.ValueIdx Cert.LibMatmulNN

variable {M K N : Nat} {φ₁ φ₂ : FTy}

/-- A plain host matrix product, read at the entry `(a, b)`: the sum over `k` of the left operand's `(a, k)` times the
    right operand's `(k, b)`. -/
theorem dotGeneral_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (lhs : FVec Ideal ⟨2, ![M, K]⟩ φ₁) (rhs : FVec Ideal ⟨2, ![K, N]⟩ φ₂) (a : Fin M) (b : Fin N) :
    FloatOps.dotGeneral d prec sched lhs rhs (ix2 a b) = ∑ k : Fin K, lhs (ix2 a k) * rhs (ix2 k b) := by
  rw [Ideal.dotGeneral_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

end Cert.LibDotGeneralNN

end
-- ==== Proof.LibHostAffine.lean ====
/-
  Two host-side shapes read at an entry, at the ideal instance.

  (1) A plain `dot_general` of an M×K array with a K×N matrix, plus a bias VECTOR of length N broadcast first to one
  row and then over the M rows, has at row `r` and column `j` the value `(∑ k, x (r, k) · W (k, j)) + b j`.
  (2) The maximum of an array with the broadcast of the scalar constant whose word is all zeros is, entry by entry, the
  maximum with the real number zero (the positive part).
-/
import proofs.«156427_j66657892434287_1_alg».proof.Proof.LibDotGeneralNN
import Idealize.ShloMosaic.Lib.Pipeline.Value

noncomputable section

open scoped BigOperators

namespace Cert.LibHostAffine

open Idealize.ShloMosaic Idealize.ShloMosaic.ValueIdx

variable {M K N : Nat} {φ₁ φ₂ : FTy} {α : Type}

/-- A vector broadcast to one row and then over `M` rows reads, at `(r, j)`, its entry `j`. -/
theorem bias_apply (b : (⟨1, ![N]⟩ : Shape).Idx → α)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (r : Fin M) (j : Fin N) :
    broadcastInDim ⟨2, ![M, N]⟩ (![0, 1] : Fin 2 → Fin 2) h2 (broadcastInDim ⟨2, ![1, N]⟩ (![1] : Fin 1 → Fin 2) h1 b) (ix2 r j)
      = b (ix1 j) := by
  rw [broadcastInDim_apply (![0, 1] : Fin 2 → Fin 2) h2 _ (ix2 r j) (ix2 (0 : Fin 1) j) (fun a => by
    match a with
    | ⟨0, _⟩ => rfl
    | ⟨1, _⟩ =>
      show j.val = if N = 1 then 0 else j.val
      split
      · have := j.isLt; omega
      · rfl)]
  exact broadcastInDim_apply (![1] : Fin 1 → Fin 2) h1 b (ix2 (0 : Fin 1) j) (ix1 j) (fun a => by
    match a with
    | ⟨0, _⟩ =>
      show j.val = if N = 1 then 0 else j.val
      split
      · have := j.isLt; omega
      · rfl)

/-- The host product plus the broadcast bias vector at the entry `(r, j)`. -/
theorem affine_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (x : FVec Ideal ⟨2, ![M, K]⟩ φ₁) (W : FVec Ideal ⟨2, ![K, N]⟩ φ₂) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (r : Fin M) (j : Fin N) :
    addf (Host.dotGeneral d prec x W)
        (broadcastInDim ⟨2, ![M, N]⟩ (![0, 1] : Fin 2 → Fin 2) h2 (broadcastInDim ⟨2, ![1, N]⟩ (![1] : Fin 1 → Fin 2) h1 b)) (ix2 r j)
      = (∑ k : Fin K, x (ix2 r k) * W (ix2 k j)) + b (ix1 j) := by
  rw [addf_apply, bias_apply b h1 h2 r j]
  simp only [Host.dotGeneral]
  rw [Cert.LibDotGeneralNN.dotGeneral_apply d hlc hrc hln hrn hlb hrb]

/-- The maximum with a broadcast zero constant is the positive part. -/
theorem relu_apply {s : Shape} (x : FVec Ideal s .f32) (h : (⟨0, ![]⟩ : Shape).BroadcastsInDim s (![] : Fin 0 → Fin s.rank))
    (i : s.Idx) :
    maximumf x (broadcastInDim s (![] : Fin 0 → Fin s.rank) h (constant (F := Ideal) ⟨0, ![]⟩ .f32 0x00000000#32)) i
      = max (x i) 0 := by
  show max (x i) (Ideal.ofBits .f32 0x00000000#32) = max (x i) 0
  rw [Ideal.ofBits_zero_f32]

end Cert.LibHostAffine

end
-- ==== Proof.RefValue.lean ====
/-
  The reference's result array read at one entry: it is the Haar-feature network of the sample, as the specification
  writes it.

  The final reshape [131072, 3] → [16, 8192, 3] at (b, s, j) reads row n = b · 8192 + s; each affine layer at (n, j) is
  the sum over k of the previous layer's (n, k) times the weight's (k, j), plus the bias's j, the first two followed by
  the maximum with zero; and the feature array at (n, k) is the indicator of [edge0 k, edge1 k) minus the indicator of
  [edge2 k, edge3 k) at the sample t (b, s): the broadcast of the samples' column reads the sample of row n, the
  broadcast tables read their entry k, and comparison, conjunction, conversion and subtraction act entry by entry.
-/
import proofs.«156427_j66657892434287_1_alg».proof.Proof.RefRun
import proofs.«156427_j66657892434287_1_alg».proof.Proof.Spec
import proofs.«156427_j66657892434287_1_alg».proof.Proof.LibHostAffine
import Idealize.ShloMosaic.Lib.Pipeline.Value
import Idealize.ShloMosaic.Lib.ValueIdx
import Idealize.ShloMosaic.PureOps.Ideal.Laws

noncomputable section

open scoped BigOperators

namespace Cert.Haar.Ref

open Cert.ReferenceIdeal Cert.ReferenceIdeal.Gen Idealize.ShloMosaic Idealize.ShloMosaic.ValueIdx

/-- The four tables of interval ends as extended reals: entry k of table 0 … 3. -/
def edge0 (k : Fin 1023) : EReal := Ideal.ofBits .f32 (Cert.ReferenceIdeal.lit0 k)
def edge1 (k : Fin 1023) : EReal := Ideal.ofBits .f32 (Cert.ReferenceIdeal.lit1 k)
def edge2 (k : Fin 1023) : EReal := Ideal.ofBits .f32 (Cert.ReferenceIdeal.lit2 k)
def edge3 (k : Fin 1023) : EReal := Ideal.ofBits .f32 (Cert.ReferenceIdeal.lit3 k)

/-- The row of the flattened samples that holds sample (b, s). -/
def rowOf (b : Fin 16) (s : Fin 8192) : Fin 131072 := ⟨b.val * 8192 + s.val, by have := b.isLt; have := s.isLt; omega⟩

theorem rowOf_val (b : Fin 16) (s : Fin 8192) : (rowOf b s).val = b.val * 8192 + s.val := rfl

section AnyInstance
variable {F : FTy → Type} [FloatOps F]

/-- The samples' column at row b · 8192 + s is the sample (b, s). -/
theorem col_apply (t : FVec F S16x8192 .f32) (b : Fin 16) (s : Fin 8192) :
    col t (ix2 (rowOf b s) (0 : Fin 1)) = t (ix2 b s) := by
  unfold col
  refine shapeCast_apply t shapeCasts_S16x8192_S131072x1 (ix2 (rowOf b s) (0 : Fin 1)) (ix2 b s) ?_
  rw [Shape.rowMajor_val_two, Shape.rowMajor_val_two]
  show b.val * 8192 + s.val = (b.val * 8192 + s.val) * 1 + 0
  omega

/-- A one-column array broadcast over N columns reads, at (r, j), its entry (r, 0). -/
theorem colBroadcast_apply {M N : Nat} {α : Type} (B : (⟨2, ![M, 1]⟩ : Shape).Idx → α)
    (h : (⟨2, ![M, 1]⟩ : Shape).BroadcastsInDim ⟨2, ![M, N]⟩ (![0, 1] : Fin 2 → Fin 2)) (r : Fin M) (j : Fin N) :
    broadcastInDim ⟨2, ![M, N]⟩ (![0, 1] : Fin 2 → Fin 2) h B (ix2 r j) = B (ix2 r (0 : Fin 1)) :=
  broadcastInDim_apply (![0, 1] : Fin 2 → Fin 2) h B (ix2 r j) (ix2 r (0 : Fin 1)) (fun a => by
    match a with
    | ⟨0, _⟩ =>
      show r.val = if M = 1 then 0 else r.val
      split
      · have := r.isLt; omega
      · rfl
    | ⟨1, _⟩ => rfl)

/-- The column repeated over the feature columns reads, at (n, k), the column's row n. -/
theorem spread_apply (t : FVec F S16x8192 .f32) (n : Fin 131072) (k : Fin 1023) :
    spread t (ix2 n k) = col t (ix2 n (0 : Fin 1)) := by
  unfold spread
  exact colBroadcast_apply (M := 131072) (N := 1023) (col t) bcast_S131072x1_S131072x1023_0_1 n k

/-- A table repeated over the rows reads, at (n, k), its entry k. -/
theorem edgeArr_apply (lit : Fin 1023 → BitVec 32) (n : Fin 131072) (k : Fin 1023) :
    edgeArr (F := F) lit (ix2 n k) = FloatOps.ofBits .f32 (lit k) := by
  unfold edgeArr
  refine (Cert.LibHostAffine.bias_apply (M := 131072) (N := 1023)
    (fun i : (⟨1, ![1023]⟩ : Shape).Idx => (FloatOps.ofBits .f32 (lit (S1023.rowMajor i)) : F .f32))
    bcast_S1023_S1x1023_1 bcast_S1x1023_S131072x1023_0_1 n k).trans ?_
  show (FloatOps.ofBits .f32 (lit (S1023.rowMajor (ix1 k))) : F .f32) = FloatOps.ofBits .f32 (lit k)
  have hk : (S1023.rowMajor (ix1 k) : Fin 1023) = k := Fin.ext (Shape.rowMajor_val_one (ix1 k))
  rw [hk]

/-- The indicator bits at an entry: the conjunction of the two comparisons of the entries. -/
theorem half_apply (t : FVec F S16x8192 .f32) (lo hi : Fin 1023 → BitVec 32) (i : S131072x1023.Idx) :
    half t lo hi i = IntOp.andi (FloatOps.cmpf .oge (spread t i) (edgeArr lo i)) (FloatOps.cmpf .olt (spread t i) (edgeArr hi i)) := rfl

end AnyInstance

/-- The indicator bits at row b · 8192 + s, column k, at the ideal instance: the indicator of [lo k, hi k) at t (b, s). -/
theorem half_ideal (t : FVec Ideal S16x8192 .f32) (lo hi : Fin 1023 → BitVec 32) (b : Fin 16) (s : Fin 8192) (k : Fin 1023) :
    half (F := Ideal) t lo hi (ix2 (rowOf b s) k)
      = ind (t (ix2 b s)) (Ideal.ofBits .f32 (lo k)) (Ideal.ofBits .f32 (hi k)) := by
  rw [half_apply, spread_apply, col_apply, edgeArr_apply, edgeArr_apply]
  rfl

/-- The feature array at row b · 8192 + s, column k: the Haar feature k of the sample t (b, s). -/
theorem feat_apply (t : FVec Ideal S16x8192 .f32) (b : Fin 16) (s : Fin 8192) (k : Fin 1023) :
    feat (F := Ideal) t (ix2 (rowOf b s) k) = cell (t (ix2 b s)) (edge0 k) (edge1 k) (edge2 k) (edge3 k) := by
  show ((((half (F := Ideal) t lit0 lit1 (ix2 (rowOf b s) k)).toNat : ℝ) : EReal))
      - ((((half (F := Ideal) t lit2 lit3 (ix2 (rowOf b s) k)).toNat : ℝ) : EReal)) = _
  rw [half_ideal, half_ideal]
  rfl

/-- The first hidden layer at row b · 8192 + s, column j. -/
theorem layer1_apply (t : FVec Ideal S16x8192 .f32) (W1 : FVec Ideal S1023x8 .f32) (b1 : FVec Ideal S8 .f32)
    (b : Fin 16) (s : Fin 8192) (j : Fin 8) :
    layer1 (F := Ideal) t W1 b1 (ix2 (rowOf b s) j) = hidden1 edge0 edge1 edge2 edge3 W1 b1 (t (ix2 b s)) j := by
  unfold layer1 relu8 bias8 hidden1
  refine (Cert.LibHostAffine.relu_apply _ bcast_S_S131072x8 (ix2 (rowOf b s) j)).trans ?_
  refine congrArg (fun z : EReal => max z 0) ?_
  refine (Cert.LibHostAffine.affine_apply (M := 131072) (K := 1023) (N := 8)
    dot_S131072x1023_S1023x8_S131072x8_1_0_0_1_n_n rfl rfl rfl rfl rfl rfl none (feat (F := Ideal) t) W1 b1
    bcast_S8_S1x8_1 bcast_S1x8_S131072x8_0_1 (rowOf b s) j).trans ?_
  refine congrArg (fun z : EReal => z + b1 (ix1 j)) ?_
  exact Finset.sum_congr rfl fun k _ => by rw [feat_apply]

/-- The second hidden layer at row n, column j, of any hidden array h. -/
theorem layer2_apply (h : FVec Ideal S131072x8 .f32) (W2 : FVec Ideal S8x8 .f32) (b2 : FVec Ideal S8 .f32)
    (n : Fin 131072) (j : Fin 8) :
    layer2 (F := Ideal) h W2 b2 (ix2 n j) = hidden2 W2 b2 (fun k => h (ix2 n k)) j := by
  unfold layer2 relu8 bias8 hidden2
  refine (Cert.LibHostAffine.relu_apply _ bcast_S_S131072x8 (ix2 n j)).trans ?_
  refine congrArg (fun z : EReal => max z 0) ?_
  exact Cert.LibHostAffine.affine_apply (M := 131072) (K := 8) (N := 8)
    dot_S131072x8_S8x8_S131072x8_1_0_0_1_n_n rfl rfl rfl rfl rfl rfl none h W2 b2
    bcast_S8_S1x8_1 bcast_S1x8_S131072x8_0_1 n j

/-- The output layer at row n, column j, of any hidden array h. -/
theorem layer3_apply (h : FVec Ideal S131072x8 .f32) (W3 : FVec Ideal S8x3 .f32) (b3 : FVec Ideal S3 .f32)
    (n : Fin 131072) (j : Fin 3) :
    layer3 (F := Ideal) h W3 b3 (ix2 n j) = outRow W3 b3 (fun k => h (ix2 n k)) j := by
  unfold layer3 bias3 outRow
  exact Cert.LibHostAffine.affine_apply (M := 131072) (K := 8) (N := 3)
    dot_S131072x8_S8x3_S131072x3_1_0_0_1_n_n rfl rfl rfl rfl rfl rfl none h W3 b3
    bcast_S3_S1x3_1 bcast_S1x3_S131072x3_0_1 n j

/-- The reference's result at (b, s, j) is the network of the specification at the sample t (b, s). -/
theorem out_apply (t : FVec Ideal Cert.ReferenceIdeal.S16x8192 .f32) (W1 : FVec Ideal Cert.ReferenceIdeal.S1023x8 .f32)
    (b1 : FVec Ideal Cert.ReferenceIdeal.S8 .f32) (W2 : FVec Ideal Cert.ReferenceIdeal.S8x8 .f32)
    (b2 : FVec Ideal Cert.ReferenceIdeal.S8 .f32) (W3 : FVec Ideal Cert.ReferenceIdeal.S8x3 .f32)
    (b3 : FVec Ideal Cert.ReferenceIdeal.S3 .f32) (b : Fin 16) (s : Fin 8192) (j : Fin 3) :
    out (F := Ideal) t W1 b1 W2 b2 W3 b3 (ValueIdx.ix3 b s j)
      = Cert.Haar.netAt edge0 edge1 edge2 edge3 t W1 b1 W2 b2 W3 b3 b s j := by
  unfold out
  refine (shapeCast_apply _ shapeCasts_S131072x3_S16x8192x3 (ix3 b s j) (ix2 (rowOf b s) j) ?_).trans ?_
  · rw [Shape.rowMajor_val_two, Shape.rowMajor_val_three]
    show (b.val * 8192 + s.val) * 3 + j.val = (b.val * 8192 + s.val) * 3 + j.val
    rfl
  rw [layer3_apply]
  unfold netAt rowNet
  refine congrArg (fun h : Fin 8 → EReal => outRow W3 b3 h j) (funext fun k => ?_)
  rw [layer2_apply]
  refine congrArg (fun h : Fin 8 → EReal => hidden2 W2 b2 h k) (funext fun k' => ?_)
  exact layer1_apply t W1 b1 b s k'

end Cert.Haar.Ref

end
-- ==== Proof.lean ====
/-
  Kernel and reference compute one function on the extended reals.

  Both programs evaluate a small network on each of 16 x 8192 samples. A sample x is turned into Haar features, feature k
  being the indicator of a left half-interval [l0 k, h0 k) minus the indicator of a right half-interval [l1 k, h1 k) with
  end points from fixed tables; three affine layers follow, the first two with the positive part. The reference uses
  1023 features and a 1023 x 8 first weight matrix. The kernel works on blocks of 2048 samples with 1024 feature
  columns: its tables have one more entry, in which the two ends of each half coincide, so both intervals there are
  empty and the extra feature is zero at every x; the extra row the weight matrix is given therefore never contributes,
  and the sum over 1024 columns is the sum over the first 1023, whose table words are the reference's. A change of
  float format is the identity on the extended reals, a matrix product into a zero accumulator and the host's product
  are the same sum, and widening an indicator bit before converting it gives the same number as converting the bit.
  No law used needs finite inputs (a product with the zero feature is zero at the infinities too), so the
  precondition is not opened.

  The kernel's result buffer is read off its run block by block (each grid point writes the block of one function of
  the arguments, the blocks tile the array, the last host operation reshapes it); the reference's run is its host
  operations composed; the two functions are compared entry by entry through the network written once.
-/
import proofs.«156427_j66657892434287_1_alg».proof.Defs
import proofs.«156427_j66657892434287_1_alg».proof.Proof.Gen.Kernel
import proofs.«156427_j66657892434287_1_alg».proof.Proof.Gen.Kernel.Skeleton
import proofs.«156427_j66657892434287_1_alg».proof.Proof.Gen.Kernel.Launch
import proofs.«156427_j66657892434287_1_alg».proof.Proof.Gen.Kernel.Points
import proofs.«156427_j66657892434287_1_alg».proof.Proof.Gen.Kernel.Frame
import proofs.«156427_j66657892434287_1_alg».proof.Proof.Gen.KernelIdeal
import proofs.«156427_j66657892434287_1_alg».proof.Proof.Gen.KernelIdeal.Skeleton
import proofs.«156427_j66657892434287_1_alg».proof.Proof.Gen.KernelIdeal.Launch
import proofs.«156427_j66657892434287_1_alg».proof.Proof.Gen.KernelIdeal.Points
import proofs.«156427_j66657892434287_1_alg».proof.Proof.Gen.KernelIdeal.Frame
import proofs.«156427_j66657892434287_1_alg».proof.Proof.Gen.ReferenceIdeal
import proofs.«156427_j66657892434287_1_alg».proof.Proof.Gen.Pre_finite_inputs
import proofs.«156427_j66657892434287_1_alg».proof.Proof.KerValue
import proofs.«156427_j66657892434287_1_alg».proof.Proof.RefValue
import Idealize.ShloMosaic.Adequacy
import Idealize.ShloMosaic.Init

noncomputable section

namespace Cert.Proof

open Idealize.ShloMosaic Idealize.SL.Sem

/-- The kernel's program as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.Haar.Ref.run (F := Ideal) m ρ)

/-- The idealization rewrote nothing. -/
theorem preserves : Cert.preserves_Kernel_KernelIdeal := trivial

/-- From memories that agree on the arguments both programs end with the same result array: at (b, s, j) each holds the
    network of the sample t (b, s) with the reference's end-point tables. -/
theorem algebraic : Cert.algebraic_KernelIdeal_ReferenceIdeal := by
  intro m ρ m' ρ' _ hagree
  refine ⟨fun c => Cert.Haar.Ker.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), Cert.Haar.Ker.run m ρ, ?_⟩
  refine (θ_run Cert.ReferenceIdeal.defs _ _).mono (fun _ h c => ⟨(h c).1.trans ?_, (h c).2⟩)
    (Cert.Haar.Ref.run (F := Ideal) m' ρ')
  obtain ⟨h0, h1, h2, h3, h4, h5, h6⟩ := hagree c
  rw [h0, h1, h2, h3, h4, h5, h6]
  refine funext fun i => ?_
  obtain ⟨b, s, j, rfl⟩ : ∃ (b : Fin 16) (s : Fin 8192) (j : Fin 3), i = ValueIdx.ix3 b s j :=
    ⟨i 0, i 1, i 2, ValueIdx.eq_ix3 i⟩
  rw [Cert.Haar.Ref.out_apply]
  exact (Cert.Haar.Ker.out_apply _ _ _ _ _ _ _ b s j).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
